-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S16x256x64 .f32 .bf16
  ∧ IdealRules.truncf_extf.Statement Cert.KernelIdeal.S16x256x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x16x64 : Shape := ⟨4, ![2048, 16, 16, 64]⟩
abbrev S2048x256 : Shape := ⟨2, ![2048, 256]⟩
abbrev S_ : Shape := ⟨0, ![]⟩

class Facts : Prop where
  bcast_S_S2048x16x16x64 : S_.BroadcastsInDim S2048x16x16x64 (![] : Fin 0 → Fin S2048x16x16x64.rank)
  reducesTo_S2048x16x16x64_S_d0_1_2_3 : S2048x16x16x64.ReducesTo [0, 1, 2, 3] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S2048x16x16x64 .f32) (main_arg1 : FVec F S2048x256 .f32) (main_arg2 : FVec F S2048x256 .f32) : IVec S_ 1 :=
  let main_v0 : FVec F S2048x16x16x64 .f32 := Host.absf main_arg0
  let main_cst : FVec F S_ .f32 := constant S_ .f32 0x7F800000#32
  let main_v1 : FVec F S2048x16x16x64 .f32 := broadcastInDim S2048x16x16x64 ![] bcast_S_S2048x16x16x64 main_cst
  let main_v2 : IVec S2048x16x16x64 1 := cmpf .olt main_v0 main_v1
  let main_c : IVec S_ 1 := constantI S_ 1 1#1
  let main_v3 : IVec S_ 1 := (fun x v => Host.reduce IntOp.andi x v reducesTo_S2048x16x16x64_S_d0_1_2_3 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Kernel.lean ====
abbrev S2048x16x16x64 : Shape := ⟨4, ![2048, 16, 16, 64]⟩
abbrev S2048x256 : Shape := ⟨2, ![2048, 256]⟩
abbrev S2048x256x64 : Shape := ⟨3, ![2048, 256, 64]⟩
abbrev S16x256x64 : Shape := ⟨3, ![16, 256, 64]⟩
abbrev S16x256 : Shape := ⟨2, ![16, 256]⟩
abbrev S16x256x1 : Shape := ⟨3, ![16, 256, 1]⟩
abbrev S16x256x256 : Shape := ⟨3, ![16, 256, 256]⟩
abbrev S16x64x256 : Shape := ⟨3, ![16, 64, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x16x16x64, .f32⟩
  | .hbm, ⟨1, _⟩ => ⟨S2048x256, .f32⟩
  | .hbm, ⟨2, _⟩ => ⟨S2048x256, .f32⟩
  | .hbm, ⟨3, _⟩ => ⟨S2048x256x64, .f32⟩
  | .hbm, ⟨4, _⟩ => ⟨S2048x256x64, .f32⟩
  | .local _ .vmem, ⟨0, _⟩ => ⟨S16x256x64, .f32⟩
  | .local _ .vmem, ⟨1, _⟩ => ⟨S16x256x64, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256x64, .f32⟩
  | .local _ .vmem, ⟨7, _⟩ => ⟨S16x256x64, .f32⟩
  | _, _ => ⟨S2048x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x16x16x64_S2048x256x64 : S2048x16x16x64.ShapeCasts S2048x256x64
  inb_S16x256_S16x256_0_0 : ∀ a, (![0, 0] : Fin 2 → Nat) a + S16x256.size a ≤ S16x256.size a
  h_S16x256 : 0 < S16x256.numel
  shapeCasts_S16x256_S16x256x1 : S16x256.ShapeCasts S16x256x1
  iota_S16x256x256_d2_w32 : S16x256x256.Iotas .tc 32 [2]
  natLt_1_32 : 1 < 32
  broadcasts_S16x256x1_S16x256x256 : S16x256x1.Broadcasts S16x256x256
  shapeCasts_S16x256x1_S16x256x1 : S16x256x1.ShapeCasts S16x256x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  bitsLt_bf16_f32 : FTy.bits .bf16 < FTy.bits .f32
  transposes_S16x64x256_p0_2_1_S16x256x64 : S16x64x256.Transposes [0, 2, 1] S16x256x64
  dot_S16x256x64_S16x256x256_S16x64x256_1_2_2_1_0_0_wf : DotDims.WF S16x256x64 S16x256x256 S16x64x256 [1] [2] [2] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S2048x256x64.size a
  hwx0_0 : ∀ i : grid0.Coords, EltTy.bits .f32 = 32 ∨ (Rect.block (s := S2048x256x64) S16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S2048x256.size a
  hwx0_1 : ∀ i : grid0.Coords, EltTy.bits .f32 = 32 ∨ (Rect.block (s := S2048x256) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S2048x256.size a
  hwx0_2 : ∀ i : grid0.Coords, EltTy.bits .f32 = 32 ∨ (Rect.block (s := S2048x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x64.size a ≤ S2048x256x64.size a
  hwx0_3 : ∀ i : grid0.Coords, EltTy.bits .f32 = 32 ∨ (Rect.block (s := S2048x256x64) S16x256x64.size (cc0_transform_3 i) (hinb0_3 i)).WholeWords (EltTy.packing .f32)

variable [Facts₀]

def dot_S16x256x64_S16x256x256_S16x64x256_1_2_2_1_0_0 : DotDims S16x256x64 S16x256x256 S16x64x256 where
  lhsContracting := [1]
  rhsContracting := [2]
  lhsNonContracting := [2]
  rhsNonContracting := [1]
  lhsBatch := [0]
  rhsBatch := [0]
  wf := dot_S16x256x64_S16x256x256_S16x64x256_1_2_2_1_0_0_wf

abbrev win0_0 : Pipeline.Window sig grid0 :=
  Pipeline.Window.ofSpec (Memref.whole main_v0) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x16x16x64 : Shape := ⟨4, ![2048, 16, 16, 64]⟩
abbrev S2048x256 : Shape := ⟨2, ![2048, 256]⟩
abbrev S_ : Shape := ⟨0, ![]⟩
abbrev S2048x256x1 : Shape := ⟨3, ![2048, 256, 1]⟩
abbrev S2048 : Shape := ⟨1, ![2048]⟩
abbrev S2048x1 : Shape := ⟨2, ![2048, 1]⟩
abbrev S2048x256x3 : Shape := ⟨3, ![2048, 256, 3]⟩
abbrev S2048x256x64 : Shape := ⟨3, ![2048, 256, 64]⟩

abbrev nBuf : Space → Nat
  | .hbm => 181
  | .vmem => 0
  | .smem => 0
  | _ => 0

abbrev hbmTy0_0 (i : Nat) : BufTy := match i % 128 with
  | 0 => ⟨S2048x16x16x64, .f32⟩
  | 1 => ⟨S2048x256, .f32⟩
  | 2 => ⟨S2048x256, .f32⟩
  | 3 => ⟨S_, .f32⟩
  | 4 => ⟨S2048x256, .f32⟩
  | 5 => ⟨S2048x256, .f32⟩
  | 6 => ⟨S_, .f32⟩
  | 7 => ⟨S2048x256, .f32⟩
  | 8 => ⟨S2048x256, .f32⟩
  | 9 => ⟨S2048x256, .f32⟩
  | 10 => ⟨S2048x256, .i32⟩
  | 11 => ⟨S_, .i32⟩
  | 12 => ⟨S_, .i32⟩
  | 13 => ⟨S_, .i32⟩
  | 14 => ⟨S2048x256, .i32⟩
  | 15 => ⟨S2048x256, .i32⟩
  | 16 => ⟨S_, .i32⟩
  | 17 => ⟨S2048x256, .i32⟩
  | 18 => ⟨S2048x256, .i32⟩
  | 19 => ⟨S2048x256, .f32⟩
  | 20 => ⟨S2048x256, .i32⟩
  | 21 => ⟨S_, .i32⟩
  | 22 => ⟨S_, .i32⟩
  | 23 => ⟨S_, .i32⟩
  | 24 => ⟨S2048x256, .i32⟩
  | 25 => ⟨S2048x256, .i32⟩
  | 26 => ⟨S_, .i32⟩
  | 27 => ⟨S2048x256, .i32⟩
  | 28 => ⟨S2048x256, .i32⟩
  | 29 => ⟨S2048x256, .f32⟩
  | 30 => ⟨S2048x256, .f32⟩
  | 31 => ⟨S2048x256x1, .f32⟩
  | 32 => ⟨S2048x256, .f32⟩
  | 33 => ⟨S2048x256, .f32⟩
  | 34 => ⟨S2048x256x1, .f32⟩
  | 35 => ⟨S2048, .i32⟩
  | 36 => ⟨S2048x1, .i32⟩
  | 37 => ⟨S_, .i32⟩
  | 38 => ⟨S2048x1, .i32⟩
  | 39 => ⟨S2048x1, .i1⟩
  | 40 => ⟨S_, .i32⟩
  | 41 => ⟨S2048x1, .i32⟩
  | 42 => ⟨S2048x1, .i32⟩
  | 43 => ⟨S2048x1, .i32⟩
  | 44 => ⟨S_, .i32⟩
  | 45 => ⟨S2048x256, .i32⟩
  | 46 => ⟨S2048x256, .i1⟩
  | 47 => ⟨S_, .i32⟩
  | 48 => ⟨S2048x256, .i32⟩
  | 49 => ⟨S2048x256, .i32⟩
  | 50 => ⟨S2048x256, .i32⟩
  | 51 => ⟨S_, .i32⟩
  | 52 => ⟨S2048x256, .i32⟩
  | 53 => ⟨S2048x256, .i1⟩
  | 54 => ⟨S_, .i32⟩
  | 55 => ⟨S2048x256, .i32⟩
  | 56 => ⟨S2048x256, .i32⟩
  | 57 => ⟨S2048x256, .i32⟩
  | 58 => ⟨S2048x256, .i32⟩
  | 59 => ⟨S2048x256x1, .i32⟩
  | 60 => ⟨S2048x256x1, .i32⟩
  | 61 => ⟨S2048x256x1, .i32⟩
  | 62 => ⟨S2048x256x3, .i32⟩
  | 63 => ⟨S2048x256x64, .f32⟩
  | 64 => ⟨S_, .i32⟩
  | 65 => ⟨S2048x256, .i32⟩
  | 66 => ⟨S2048x256, .i32⟩
  | 67 => ⟨S_, .i32⟩
  | 68 => ⟨S2048x1, .i32⟩
  | 69 => ⟨S2048x1, .i1⟩
  | 70 => ⟨S_, .i32⟩
  | 71 => ⟨S2048x1, .i32⟩
  | 72 => ⟨S2048x1, .i32⟩
  | 73 => ⟨S2048x1, .i32⟩
  | 74 => ⟨S_, .i32⟩
  | 75 => ⟨S2048x256, .i32⟩
  | 76 => ⟨S2048x256, .i1⟩
  | 77 => ⟨S_, .i32⟩
  | 78 => ⟨S2048x256, .i32⟩
  | 79 => ⟨S2048x256, .i32⟩
  | 80 => ⟨S2048x256, .i32⟩
  | 81 => ⟨S_, .i32⟩
  | 82 => ⟨S2048x256, .i32⟩
  | 83 => ⟨S2048x256, .i1⟩
  | 84 => ⟨S_, .i32⟩
  | 85 => ⟨S2048x256, .i32⟩
  | 86 => ⟨S2048x256, .i32⟩
  | 87 => ⟨S2048x256, .i32⟩
  | 88 => ⟨S2048x256, .i32⟩
  | 89 => ⟨S2048x256x1, .i32⟩
  | 90 => ⟨S2048x256x1, .i32⟩
  | 91 => ⟨S2048x256x1, .i32⟩
  | 92 => ⟨S2048x256x3, .i32⟩
  | 93 => ⟨S2048x256x64, .f32⟩
  | 94 => ⟨S_, .i32⟩
  | 95 => ⟨S2048x256, .i32⟩
  | 96 => ⟨S2048x256, .i32⟩
  | 97 => ⟨S_, .i32⟩
  | 98 => ⟨S2048x1, .i32⟩
  | 99 => ⟨S2048x1, .i1⟩
  | 100 => ⟨S_, .i32⟩
  | 101 => ⟨S2048x1, .i32⟩
  | 102 => ⟨S2048x1, .i32⟩
  | 103 => ⟨S2048x1, .i32⟩
  | 104 => ⟨S_, .i32⟩
  | 105 => ⟨S2048x256, .i32⟩
  | 106 => ⟨S2048x256, .i1⟩
  | 107 => ⟨S_, .i32⟩
  | 108 => ⟨S2048x256, .i32⟩
  | 109 => ⟨S2048x256, .i32⟩
  | 110 => ⟨S2048x256, .i32⟩
  | 111 => ⟨S_, .i32⟩
  | 112 => ⟨S2048x256, .i32⟩
  | 113 => ⟨S2048x256, .i1⟩
  | 114 => ⟨S_, .i32⟩
  | 115 => ⟨S2048x256, .i32⟩
  | 116 => ⟨S2048x256, .i32⟩
  | 117 => ⟨S2048x256, .i32⟩
  | 118 => ⟨S2048x256, .i32⟩
  | 119 => ⟨S2048x256x1, .i32⟩
  | 120 => ⟨S2048x256x1, .i32⟩
  | 121 => ⟨S2048x256x1, .i32⟩
  | 122 => ⟨S2048x256x3, .i32⟩
  | 123 => ⟨S2048x256x64, .f32⟩
  | 124 => ⟨S_, .i32⟩
  | 125 => ⟨S2048x256, .i32⟩
  | 126 => ⟨S2048x256, .i32⟩
  | 127 => ⟨S_, .i32⟩
  | _ => ⟨S2048x16x16x64, .f32⟩

abbrev hbmTy0_1 (i : Nat) : BufTy := match i % 128 with
  | 0 => ⟨S2048x256, .i32⟩
  | 1 => ⟨S2048x256, .i32⟩
  | 2 => ⟨S_, .i32⟩
  | 3 => ⟨S2048x1, .i32⟩
  | 4 => ⟨S2048x1, .i1⟩
  | 5 => ⟨S_, .i32⟩
  | 6 => ⟨S2048x1, .i32⟩
  | 7 => ⟨S2048x1, .i32⟩
  | 8 => ⟨S2048x1, .i32⟩
  | 9 => ⟨S_, .i32⟩
  | 10 => ⟨S2048x256, .i32⟩
  | 11 => ⟨S2048x256, .i1⟩
  | 12 => ⟨S_, .i32⟩
  | 13 => ⟨S2048x256, .i32⟩
  | 14 => ⟨S2048x256, .i32⟩
  | 15 => ⟨S2048x256, .i32⟩
  | 16 => ⟨S_, .i32⟩
  | 17 => ⟨S2048x256, .i32⟩
  | 18 => ⟨S2048x256, .i1⟩
  | 19 => ⟨S_, .i32⟩
  | 20 => ⟨S2048x256, .i32⟩
  | 21 => ⟨S2048x256, .i32⟩
  | 22 => ⟨S2048x256, .i32⟩
  | 23 => ⟨S2048x256, .i32⟩
  | 24 => ⟨S2048x256x1, .i32⟩
  | 25 => ⟨S2048x256x1, .i32⟩
  | 26 => ⟨S2048x256x1, .i32⟩
  | 27 => ⟨S2048x256x3, .i32⟩
  | 28 => ⟨S2048x256x64, .f32⟩
  | 29 => ⟨S_, .f32⟩
  | 30 => ⟨S2048x256x1, .f32⟩
  | 31 => ⟨S2048x256x1, .f32⟩
  | 32 => ⟨S2048x256x64, .f32⟩
  | 33 => ⟨S2048x256x64, .f32⟩
  | 34 => ⟨S2048x256x64, .f32⟩
  | 35 => ⟨S2048x256x64, .f32⟩
  | 36 => ⟨S2048x256x64, .f32⟩
  | 37 => ⟨S_, .f32⟩
  | 38 => ⟨S2048x256x1, .f32⟩
  | 39 => ⟨S2048x256x1, .f32⟩
  | 40 => ⟨S2048x256x64, .f32⟩
  | 41 => ⟨S2048x256x64, .f32⟩
  | 42 => ⟨S2048x256x64, .f32⟩
  | 43 => ⟨S2048x256x64, .f32⟩
  | 44 => ⟨S2048x256x64, .f32⟩
  | 45 => ⟨S_, .f32⟩
  | 46 => ⟨S2048x256x1, .f32⟩
  | 47 => ⟨S2048x256x1, .f32⟩
  | 48 => ⟨S2048x256x64, .f32⟩
  | 49 => ⟨S2048x256x64, .f32⟩
  | 50 => ⟨S2048x256x64, .f32⟩
  | 51 => ⟨S2048x256x64, .f32⟩
  | 52 => ⟨S2048x256x64, .f32⟩
  | _ => ⟨S2048x16x16x64, .f32⟩

abbrev hbmTy (i : Nat) : BufTy := match i / 128 with
  | 0 => hbmTy0_0 i
  | 1 => hbmTy0_1 i
  | _ => ⟨S2048x16x16x64, .f32⟩

abbrev bufTy : (tb : Table) → Fin (tcTables nBuf tb) → BufTy
  | .hbm, ⟨i, _⟩ => hbmTy i
  | _, _ => ⟨S2048x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_13 : Ref sig .tc := ⟨.hbm, 74, rfl⟩
abbrev main_v46 : Ref sig .tc := ⟨.hbm, 75, rfl⟩
abbrev main_v47 : Ref sig .tc := ⟨.hbm, 76, rfl⟩
abbrev main_c_14 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_15 : Ref sig .tc := ⟨.hbm, 81, rfl⟩
abbrev main_v51 : Ref sig .tc := ⟨.hbm, 82, rfl⟩
abbrev main_v52 : Ref sig .tc := ⟨.hbm, 83, rfl⟩
abbrev main_c_16 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_17 : Ref sig .tc := ⟨.hbm, 94, rfl⟩
abbrev main_v62 : Ref sig .tc := ⟨.hbm, 95, rfl⟩
abbrev main_v63 : Ref sig .tc := ⟨.hbm, 96, rfl⟩
abbrev main_c_18 : Ref sig .tc := ⟨.hbm, 97, rfl⟩
abbrev main_v64 : Ref sig .tc := ⟨.hbm, 98, rfl⟩
abbrev main_v65 : Ref sig .tc := ⟨.hbm, 99, rfl⟩
abbrev main_c_19 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_20 : Ref sig .tc := ⟨.hbm, 104, rfl⟩
abbrev main_v69 : Ref sig .tc := ⟨.hbm, 105, rfl⟩
abbrev main_v70 : Ref sig .tc := ⟨.hbm, 106, rfl⟩
abbrev main_c_21 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_22 : Ref sig .tc := ⟨.hbm, 111, rfl⟩
abbrev main_v74 : Ref sig .tc := ⟨.hbm, 112, rfl⟩
abbrev main_v75 : Ref sig .tc := ⟨.hbm, 113, rfl⟩
abbrev main_c_23 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_24 : Ref sig .tc := ⟨.hbm, 124, rfl⟩
abbrev main_v85 : Ref sig .tc := ⟨.hbm, 125, rfl⟩
abbrev main_v86 : Ref sig .tc := ⟨.hbm, 126, rfl⟩
abbrev main_c_25 : Ref sig .tc := ⟨.hbm, 127, rfl⟩
abbrev main_v87 : Ref sig .tc := ⟨.hbm, 128, rfl⟩
abbrev main_v88 : Ref sig .tc := ⟨.hbm, 129, rfl⟩
abbrev main_c_26 : Ref sig .tc := ⟨.hbm, 130, rfl⟩
abbrev main_v89 : Ref sig .tc := ⟨.hbm, 131, rfl⟩
abbrev main_v90 : Ref sig .tc := ⟨.hbm, 132, rfl⟩
abbrev main_c_27 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_28 : Ref sig .tc := ⟨.hbm, 137, rfl⟩
abbrev main_v94 : Ref sig .tc := ⟨.hbm, 138, rfl⟩
abbrev main_v95 : Ref sig .tc := ⟨.hbm, 139, rfl⟩
abbrev main_c_29 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_30 : Ref sig .tc := ⟨.hbm, 144, rfl⟩
abbrev main_v99 : Ref sig .tc := ⟨.hbm, 145, rfl⟩
abbrev main_v100 : Ref sig .tc := ⟨.hbm, 146, rfl⟩
abbrev main_c_31 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_32 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_33 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_34 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩

abbrev nD : Nat := 1
abbrev τ : Topo := Topo.v7x

variable {F : FTy → Type} [FloatOps F]

class Facts₀ : Prop where
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256x1_S2048x256x1_S2048x256x1_S2048x256x3_d2 : Shape.Concatenates [S2048x256x1, S2048x256x1, S2048x256x1] S2048x256x3 2
  bcast_S_S2048x256x1 : S_.BroadcastsInDim S2048x256x1 (![] : Fin 0 → Fin S2048x256x1.rank)
  bcast_S2048x256x1_S2048x256x64_0_1_2 : S2048x256x1.BroadcastsInDim S2048x256x64 (![0, 1, 2] : Fin 3 → Fin S2048x256x64.rank)
  gather_S2048x16x16x64_S2048x256x3_S2048x256x64_2_012_n_n_012_2_11164_wf : GatherDims.WF S2048x16x16x64 S2048x256x3 S2048x256x64 [2] [0, 1, 2] [] [0, 1, 2] [] 2 ![1, 1, 1, 64]

variable [Facts₀]

def gather_S2048x16x16x64_S2048x256x3_S2048x256x64_2_012_n_n_012_2_11164 : GatherDims S2048x16x16x64 S2048x256x3 S2048x256x64 where
  offsetDims := [2]
  collapsedSliceDims := [0, 1, 2]
  operandBatchingDims := []
  startIndicesBatchingDims := []
  startIndexMap := [0, 1, 2]
  indexVectorDim := 2
  sliceSizes := ![1, 1, 1, 64]
  wf := gather_S2048x16x16x64_S2048x256x3_S2048x256x64_2_012_n_n_012_2_11164_wf

class Facts : Prop extends Facts₀ where

variable [Facts]
-- ==== Proof.Spec.lean ====
/-
  The mathematics of the bilinear texture fetch, stated once, over the extended reals, with no program in sight.

  A sample with coordinates (u, v) in a 16 x 16 grid of texels is read at the scaled position (15·u, 15·v). Each scaled
  coordinate is split into a CELL (its floor as a signed 32-bit integer, clamped into [0, 14], so that the cell and its
  successor are both rows, or columns, of the grid) and the OFFSET inside the cell (the scaled coordinate less the cell).
  The fetched value is the two-step blend of the four texels at the cell's corners: first along the columns with the
  weights (one - fx, fx), then along the rows with (one - fy, fy).

  The same number is the full contraction, over all 256 texels, of the texel with the product of a row weight and a
  column weight, where a row's weight is (one - fy) at the cell's row, fy at the next one and zero elsewhere, and likewise
  for the columns: this is `blend`, and `Cert.Spec.contraction_eq_bilinear` (Proof/Algebra.lean) is the law between
  the two forms.
-/
import Idealize.ShloMosaic.PureOps.Ideal
import Idealize.ShloMosaic.Lib.ValueIdx

noncomputable section

namespace Cert.Spec

open Idealize.ShloMosaic Idealize.ShloMosaic.ValueIdx

/-- The float constants of both programs, as the extended reals their words denote: 15, 1 and 0. -/
abbrev fifteen : EReal := Ideal.ofBits .f32 0x41700000#32
abbrev one : EReal := Ideal.ofBits .f32 0x3F800000#32
abbrev zero : EReal := Ideal.ofBits .f32 0x00000000#32

/-- The scaled coordinate 15·u. -/
def scaled (u : EReal) : EReal := u * fifteen

/-- The cell of a coordinate: the floor of the scaled coordinate, converted to a signed 32-bit integer, clamped below at 0
    and above at 14. -/
def cell (u : EReal) : BitVec 32 :=
  IntOp.minsi 14#32 (IntOp.maxsi 0#32 (Ideal.fptosi 32 (Ideal.liftRound Int.floor (scaled u))))

/-- The offset of a coordinate inside its cell: the scaled coordinate less the cell. -/
def frac (u : EReal) : EReal := scaled u - (((cell u).toInt : ℝ) : EReal)

/-- The weight a row (or column) `r` of the grid gets from a coordinate `u`: `one - frac u` at the cell, `frac u` at the
    cell's successor, zero elsewhere. -/
def blend (u : EReal) (r : Nat) : EReal :=
  if r = (cell u).toNat then one - frac u else if r = (cell u).toNat + 1 then frac u else zero

/-- Texel (row, column) of complex `c`, feature `f`, the row and column clamped into the grid (they are in the grid
    wherever this is used: the clamp only makes the function total). -/
def tex (mp : (⟨4, ![2048, 16, 16, 64]⟩ : Shape).Idx → EReal) (c : Fin 2048) (f : Fin 64) (r s : Nat) : EReal :=
  mp (ix4 c (⟨min r 15, by omega⟩ : Fin 16) (⟨min s 15, by omega⟩ : Fin 16) f)

/-- The two-step blend of the four corner texels, from the two coordinates `u` (columns) and `v` (rows) of a sample and
    the texel function `t` (row, column). -/
def bilinear (t : Nat → Nat → EReal) (u v : EReal) : EReal :=
  (t (cell v).toNat (cell u).toNat * (one - frac u) + t (cell v).toNat ((cell u).toNat + 1) * frac u) * (one - frac v)
  + (t ((cell v).toNat + 1) (cell u).toNat * (one - frac u) + t ((cell v).toNat + 1) ((cell u).toNat + 1) * frac u) * frac v

/-- THE RESULT: entry (c, p, f) is the bilinear fetch from complex `c`'s grid, feature `f`, at sample `p`'s coordinates. -/
def G (mp : (⟨4, ![2048, 16, 16, 64]⟩ : Shape).Idx → EReal) (u v : (⟨2, ![2048, 256]⟩ : Shape).Idx → EReal) :
    (⟨3, ![2048, 256, 64]⟩ : Shape).Idx → EReal :=
  fun j => bilinear (tex mp (j 0) (j 2)) (u (ix2 (j 0) (j 1))) (v (ix2 (j 0) (j 1)))

/-- A clamped cell, read as a signed integer, lies in [0, 14]. -/
theorem cell_toInt (u : EReal) : 0 ≤ (cell u).toInt ∧ (cell u).toInt ≤ 14 := by
  unfold cell IntOp.minsi IntOp.maxsi
  generalize Ideal.fptosi 32 (Ideal.liftRound Int.floor (scaled u)) = z
  simp only [BitVec.slt]
  have h0 : (0#32).toInt = 0 := by decide
  have h14 : (14#32).toInt = 14 := by decide
  split <;> split <;> simp_all <;> omega

/-- So as a natural number it is at most 14. -/
theorem cell_toNat_le (u : EReal) : (cell u).toNat ≤ 14 := by
  have h := cell_toInt u
  have hc := BitVec.toInt_eq_toNat_cond (cell u)
  have hl := (cell u).isLt
  split at hc <;> omega

/-- And its signed and unsigned readings agree. -/
theorem cell_toInt_eq (u : EReal) : (cell u).toInt = ((cell u).toNat : Int) := by
  have h := cell_toInt u
  have hc := BitVec.toInt_eq_toNat_cond (cell u)
  have hl := (cell u).isLt
  split at hc <;> omega

end Cert.Spec

end
-- ==== Proof.Finite.lean ====
/-
  From the precondition to finiteness: every entry of the three input arrays is a real number.

  The precondition is the conjunction of three tests, one per array: the absolute value of every entry is below
  +∞. A conjunction of one-bit words is 1 only when each is; a reduction by "and" over all axes is 1 only when every
  element is; and an extended real whose absolute value max x (-x) is below +∞ is neither infinity (for either of
  them that maximum is +∞ itself), so it is a real.
-/
import proofs.«115967_j30502857736195_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- The result of a reduction over all axes has no axis left, hence a single index. -/
instance : Subsingleton Cert.Pre_finite_inputs.S_.Idx := ⟨fun _ _ => funext fun d => d.elim0⟩

/-- An extended real whose absolute value is below +∞ (the test reads 1) is a real number: at either infinity the
    absolute value is +∞, which is not below itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- THE PRECONDITION DECODED: where the finiteness test of the three arrays reads 1, every entry of each is real. -/
theorem real_of_pre [Cert.Pre_finite_inputs.Facts]
    (x0 : Cert.Pre_finite_inputs.S2048x16x16x64.Idx → EReal) (x1 x2 : Cert.Pre_finite_inputs.S2048x256.Idx → EReal)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ix0
  dsimp only [Cert.Pre_finite_inputs.fn] at e
  -- the conjunction of the three tests is 1: each test is
  obtain ⟨h01, h2⟩ := IntOp.andi_eq_one.1 e
  obtain ⟨h0, h1⟩ := IntOp.andi_eq_one.1 h01
  -- a test is a reduction by "and" over all axes: every element of it is 1, and that element is the comparison
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i)⟩

end Cert.Finite

end
-- ==== Proof.Algebra.lean ====
/-
  The law between the two forms of the bilinear fetch.

  One form is the two-step blend of the four texels at the corners of a cell. The other is a contraction over all 256
  texels of the grid, texel (r, s) weighted by the product of a row weight and a column weight, followed by two
  correction sums that compensate a split of each factor into a leading part and a remainder; here both remainders
  are a number less itself, so both corrections are sums of zeros.

  Everything in sight is a real number once the coordinates and the texels are, so the law is proved over the reals
  (re-index the 256 texels as 16 rows of 16 columns; a weight that lives on two neighbouring rows keeps two terms of a
  sum over the rows) and then carried to the extended reals through the embedding of the reals.
-/
import proofs.«115967_j30502857736195_2_alg».proof.Proof.Spec
import Mathlib

noncomputable section

namespace Cert.Spec

open Idealize.ShloMosaic Idealize.ShloMosaic.ValueIdx

/-! ### Over the reals -/

/-- A sum over the sixteen rows against a weight that is a at row c, b at row c + 1 and zero elsewhere keeps
    exactly those two rows; both are rows of the grid because c ≤ 14, and they are different rows. -/
theorem sum_two (g : ℕ → ℝ) (a b : ℝ) (c : ℕ) (hc : c ≤ 14) :
    ∑ r : Fin 16, g r.val * (if r.val = c then a else if r.val = c + 1 then b else 0)
      = g c * a + g (c + 1) * b := by
  have h := Finset.sum_eq_add (s := Finset.univ)
    (f := fun r : Fin 16 => g r.val * (if r.val = c then a else if r.val = c + 1 then b else 0))
    (⟨c, by omega⟩ : Fin 16) (⟨c + 1, by omega⟩ : Fin 16) (by simp [Fin.ext_iff]) ?_ (by simp) (by simp)
  · simpa using h
  · intro r _ hr
    have h1 : r.val ≠ c := fun e => hr.1 (Fin.ext e)
    have h2 : r.val ≠ c + 1 := fun e => hr.2 (Fin.ext e)
    simp [h1, h2]

/-- Texel k of the flattened grid sits in row k / 16, column k % 16: a sum over the 256 texels is the sum over
    the rows of the sums over the columns. -/
theorem sum_grid (f : ℕ → ℕ → ℝ) :
    ∑ k : Fin 256, f (k.val / 16) (k.val % 16) = ∑ r : Fin 16, ∑ s : Fin 16, f r.val s.val :=
  (Fintype.sum_equiv (finProdFinEquiv (m := 16) (n := 16)).symm
      (fun k : Fin 256 => f (k.val / 16) (k.val % 16)) (fun p : Fin 16 × Fin 16 => f p.1.val p.2.val)
      (fun _ => rfl)).trans
    (Fintype.sum_prod_type _)

/-- The law over the reals: with row weights (a' at y0, b' at y0 + 1) and column weights (a at x0, b at x0 + 1),
    the contraction of m with the product weight is the two-step blend of the four corners. -/
theorem contraction_real (m : ℕ → ℕ → ℝ) (a b a' b' : ℝ) (y0 x0 : ℕ) (hy : y0 ≤ 14) (hx : x0 ≤ 14) :
    ∑ k : Fin 256, m (k.val / 16) (k.val % 16)
        * ((if k.val / 16 = y0 then a' else if k.val / 16 = y0 + 1 then b' else 0)
          * (if k.val % 16 = x0 then a else if k.val % 16 = x0 + 1 then b else 0))
      = (m y0 x0 * a + m y0 (x0 + 1) * b) * a' + (m (y0 + 1) x0 * a + m (y0 + 1) (x0 + 1) * b) * b' := by
  refine (sum_grid (fun r s => m r s
    * ((if r = y0 then a' else if r = y0 + 1 then b' else 0) * (if s = x0 then a else if s = x0 + 1 then b else 0)))).trans ?_
  -- inside a row the row weight is a constant factor, and the column weight keeps two columns
  have hrow : ∀ r : Fin 16, ∑ s : Fin 16, m r.val s.val
        * ((if r.val = y0 then a' else if r.val = y0 + 1 then b' else 0)
          * (if s.val = x0 then a else if s.val = x0 + 1 then b else 0))
      = (m r.val x0 * a + m r.val (x0 + 1) * b) * (if r.val = y0 then a' else if r.val = y0 + 1 then b' else 0) := by
    intro r
    generalize (if r.val = y0 then a' else if r.val = y0 + 1 then b' else 0) = w
    calc ∑ s : Fin 16, m r.val s.val * (w * (if s.val = x0 then a else if s.val = x0 + 1 then b else 0))
        = ∑ s : Fin 16, (m r.val s.val * w) * (if s.val = x0 then a else if s.val = x0 + 1 then b else 0) :=
          Finset.sum_congr rfl fun s _ => (mul_assoc _ _ _).symm
      _ = m r.val x0 * w * a + m r.val (x0 + 1) * w * b := sum_two (fun s => m r.val s * w) a b x0 hx
      _ = (m r.val x0 * a + m r.val (x0 + 1) * b) * w := by ring
  -- and the row weight keeps two rows
  exact (Finset.sum_congr rfl fun r _ => hrow r).trans
    (sum_two (fun r => m r x0 * a + m r (x0 + 1) * b) a' b' y0 hy)

/-! ### The constants, the offsets and the weights are real numbers -/

theorem one_eq : one = ((1 : ℝ) : EReal) := by
  rw [EReal.coe_one]; simp [Ideal.ofBits, Ideal.ieee, -EReal.coe_mul]; norm_num

theorem fifteen_eq : fifteen = ((15 : ℝ) : EReal) := by
  simp [Ideal.ofBits, Ideal.ieee, -EReal.coe_mul]; norm_num

theorem zero_eq : zero = ((0 : ℝ) : EReal) := by
  rw [EReal.coe_zero]; simp [Ideal.ofBits, Ideal.ieee]

/-- The embedding of the reals carries finite sums to finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The offset of a real coordinate is real: 15·x less an integer. -/
theorem frac_real (u : EReal) (hu : ∃ x : ℝ, u = (x : EReal)) : ∃ f : ℝ, frac u = (f : EReal) := by
  obtain ⟨x, rfl⟩ := hu
  exact ⟨x * 15 - ((cell (x : EReal)).toInt : ℝ), by
    rw [frac, scaled, fifteen_eq, ← EReal.coe_mul, ← EReal.coe_sub]⟩

/-- So a weight is real: 1 - f at the cell, f at its successor, 0 elsewhere, f the real offset. -/
theorem blend_real (u : EReal) (f : ℝ) (hf : frac u = (f : EReal)) (r : ℕ) :
    blend u r
      = ((if r = (cell u).toNat then 1 - f else if r = (cell u).toNat + 1 then f else 0 : ℝ) : EReal) := by
  unfold blend
  rw [hf, one_eq, zero_eq, ← EReal.coe_sub]
  split_ifs <;> rfl

/-! ### The law over the extended reals -/

/-- For real texels and real coordinates, the contraction over the 256 texels with its two correction sums is the
    two-step blend of the four corner texels. -/
theorem contraction_eq_bilinear (t : Nat → Nat → EReal) (u v : EReal)
    (ht : ∀ r s, ∃ x : ℝ, t r s = (x : EReal)) (hu : ∃ x : ℝ, u = (x : EReal)) (hv : ∃ x : ℝ, v = (x : EReal)) :
    (∑ k : Fin 256, t (k.val / 16) (k.val % 16) * (blend v (k.val / 16) * blend u (k.val % 16))
      + ∑ k : Fin 256, t (k.val / 16) (k.val % 16)
          * (blend v (k.val / 16) * blend u (k.val % 16) - blend v (k.val / 16) * blend u (k.val % 16)))
      + ∑ k : Fin 256, (t (k.val / 16) (k.val % 16) - t (k.val / 16) (k.val % 16))
          * (blend v (k.val / 16) * blend u (k.val % 16))
      = bilinear t u v := by
  choose T hT using ht
  obtain ⟨fu, hfu⟩ := frac_real u hu
  obtain ⟨fv, hfv⟩ := frac_real v hv
  have hbu := blend_real u fu hfu
  have hbv := blend_real v fv hfv
  -- the leading sum is a sum of reals
  have h1 : ∀ k : Fin 256, t (k.val / 16) (k.val % 16) * (blend v (k.val / 16) * blend u (k.val % 16))
      = ((T (k.val / 16) (k.val % 16)
          * ((if k.val / 16 = (cell v).toNat then 1 - fv else if k.val / 16 = (cell v).toNat + 1 then fv else 0)
            * (if k.val % 16 = (cell u).toNat then 1 - fu else if k.val % 16 = (cell u).toNat + 1 then fu else 0)) : ℝ)
          : EReal) := by
    intro k
    rw [hT, hbv, hbu, ← EReal.coe_mul, ← EReal.coe_mul]
  -- a real weight less itself is zero, and so is a real texel less itself: the corrections are sums of zeros
  have h2 : ∀ k : Fin 256, t (k.val / 16) (k.val % 16)
      * (blend v (k.val / 16) * blend u (k.val % 16) - blend v (k.val / 16) * blend u (k.val % 16)) = 0 := by
    intro k
    rw [hbv, hbu, ← EReal.coe_mul, ← EReal.coe_sub, sub_self, EReal.coe_zero, mul_zero]
  have h3 : ∀ k : Fin 256, (t (k.val / 16) (k.val % 16) - t (k.val / 16) (k.val % 16))
      * (blend v (k.val / 16) * blend u (k.val % 16)) = 0 := by
    intro k
    rw [hT, ← EReal.coe_sub, sub_self, EReal.coe_zero, zero_mul]
  rw [Finset.sum_congr rfl fun k _ => h1 k, Finset.sum_congr rfl fun k _ => h2 k,
    Finset.sum_congr rfl fun k _ => h3 k, Finset.sum_const_zero, add_zero, add_zero, ← coe_sum,
    contraction_real T (1 - fu) fu (1 - fv) fv _ _ (cell_toNat_le v) (cell_toNat_le u)]
  unfold bilinear
  rw [hT, hT, hT, hT, hfu, hfv, one_eq]
  simp only [← EReal.coe_sub, ← EReal.coe_mul, ← EReal.coe_add]

end Cert.Spec

end
-- ==== Proof.Contraction.lean ====
/-
  The kernel body's last value, read at an index.

  In a block of 16 complexes the body forms three batched matrix products with 256 samples, 256 texels and 64 features,
  each contracting the texel axis: entry (c, f, p) of a product of a left operand L [16, 256 texels, 64 features] and a
  right operand R [16, 256 samples, 256 texels] is the sum over the texel k of L (c, k, f) · R (c, p, k). The three
  products are "high · high", "high · low" and "low · high" of an error-compensated split of the texels and of the
  weights, where "low" is the operand less its own rounding. Over the extended reals a rounding is the identity, so
  "high" is the operand itself and "low" is the operand less itself. The three products are added and the sum is
  transposed to the (c, p, f) order of the output block.
-/
import proofs.«115967_j30502857736195_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Contraction

open Idealize.ShloMosaic Idealize.ShloMosaic.ValueIdx Cert.KernelIdeal Cert.KernelIdeal.Gen

/-- The texel axis of the batched product, as the one coordinate of its contraction index. -/
abbrev texel : (dot_S16x256x64_S16x256x256_S16x64x256_1_2_2_1_0_0).contr.Idx ≃ Fin 256 :=
  contrEquiv1 dot_S16x256x64_S16x256x256_S16x64x256_1_2_2_1_0_0 256 rfl rfl

/-- At output entry (c, f, p) and texel k the left operand is read at (c, k, f): the batch axis from the output's first
    coordinate, the texel from the contraction, the feature from the output's second coordinate. -/
theorem lhs_at (c : Fin 16) (f : Fin 64) (p : Fin 256) (k : (dot_S16x256x64_S16x256x256_S16x64x256_1_2_2_1_0_0).contr.Idx) :
    (dot_S16x256x64_S16x256x256_S16x64x256_1_2_2_1_0_0).lhsIdx (ix3 c f p) k = ix3 c (texel k) f := by
  funext a
  match a with
  | ⟨0, _⟩ => rfl
  | ⟨1, _⟩ => rfl
  | ⟨2, _⟩ => rfl

/-- … and the right operand at (c, p, k). -/
theorem rhs_at (c : Fin 16) (f : Fin 64) (p : Fin 256) (k : (dot_S16x256x64_S16x256x256_S16x64x256_1_2_2_1_0_0).contr.Idx) :
    (dot_S16x256x64_S16x256x256_S16x64x256_1_2_2_1_0_0).rhsIdx (ix3 c f p) k = ix3 c p (texel k) := by
  funext a
  match a with
  | ⟨0, _⟩ => rfl
  | ⟨1, _⟩ => rfl
  | ⟨2, _⟩ => rfl

/-- One batched product into the zero accumulator, at entry (c, f, p): the sum over the 256 texels. -/
theorem product_apply (lhs : FVec Ideal S16x256x64 .bf16) (rhs : FVec Ideal S16x256x256 .bf16) (c : Fin 16) (f : Fin 64) (p : Fin 256) :
    matmul dot_S16x256x64_S16x256x256_S16x64x256_1_2_2_1_0_0 none lhs rhs (constant (F := Ideal) S16x64x256 .f32 0x00000000#32) (ix3 c f p)
      = ∑ k : Fin 256, lhs (ix3 c k f) * rhs (ix3 c p k) := by
  simp only [matmul]
  rw [Ideal.matmul_constant_zero_apply]
  rw [← Equiv.sum_comp texel (fun k : Fin 256 => lhs (ix3 c k f) * rhs (ix3 c p k))]
  exact Finset.sum_congr rfl fun k _ => by rw [lhs_at, rhs_at]

/-- THE BODY'S LAST VALUE at entry (c, p, f) of the output block, for any weights `w`, "high" texels `hi`, "low" texels
    `lo` and "high" weights `wh`: (Σ hi·wh + Σ hi·(w − w)) + Σ lo·wh, each sum over the 256 texels. -/
theorem pay1_apply (w : FVec Ideal S16x256x256 .f32) (hi lo : FVec Ideal S16x256x64 .bf16) (wh : FVec Ideal S16x256x256 .bf16)
    (c : Fin 16) (p : Fin 256) (f : Fin 64) :
    k0_pay1 (F := Ideal) w hi lo wh (ix3 c p f)
      = (∑ k : Fin 256, hi (ix3 c k f) * wh (ix3 c p k) + ∑ k : Fin 256, hi (ix3 c k f) * (w (ix3 c p k) - w (ix3 c p k)))
        + ∑ k : Fin 256, lo (ix3 c k f) * wh (ix3 c p k) := by
  unfold k0_pay1
  refine (transpose_apply _ _ transposes_S16x64x256_p0_2_1_S16x256x64 (ix3 c p f) (ix3 c f p) (fun b => ?_)).trans ?_
  · match b with
    | ⟨0, _⟩ => rfl
    | ⟨1, _⟩ => rfl
    | ⟨2, _⟩ => rfl
  · show (matmul _ none hi wh _ (ix3 c f p) + matmul _ none hi _ _ (ix3 c f p)) + matmul _ none lo wh _ (ix3 c f p) = _
    rw [product_apply, product_apply, product_apply]
    rfl

end Cert.Contraction

end
-- ==== Proof.Weight.lean ====
/-
  The weight of one texel in one sample's fetch, as the program's block of 16 complexes builds it.

  A complex's 16 x 16 grid of texels is laid out as 256 lanes, lane k holding row k / 16 and column k mod 16. For
  sample p of complex c, with coordinates (u, v), the block forms for every lane k the row (the floor quotient of k by
  16) and the column (k less 16 times that row), gives the row the weight (one - fy) when it is the cell's row y0, fy
  when it is y0 + 1 and zero otherwise, gives the column the like weight from (x0, fx), and multiplies the two. Here
  (x0, fx) and (y0, fy) are the cell and the offset of u and of v (Spec.lean: `cell`, `frac`).

  Read at the index (c, p, k), that product is `blend v (k / 16) * blend u (k % 16)` — `weight_apply`, the one fact
  the rest of the proof takes from here. On the way: the two layout steps the block uses ([16,256] viewed as
  [16,256,1]; [16,256,1] spread along 256 lanes), the cell and the offset read at an index, the row and column of a
  lane as 32-bit words, and the nested choice between (one - f, f, zero) as `blend`.
-/
import proofs.«115967_j30502857736195_2_alg».proof.Proof.Gen.KernelIdeal.Skeleton
import proofs.«115967_j30502857736195_2_alg».proof.Proof.Spec
import Idealize.ShloMosaic.Lib.ValueIdx
import Idealize.ShloMosaic.Lib.Pipeline.Value

noncomputable section

namespace Cert.Weight

open Idealize.ShloMosaic Idealize.ShloMosaic.ValueIdx
open Cert.KernelIdeal Cert.KernelIdeal.Gen

/-! ## The two layout steps -/

/-- A [16,256,1] array spread along a third axis of 256 lanes reads, at (c, p, k), its entry (c, p, 0): the first two
    coordinates are kept, the unit axis reads 0. -/
theorem bcast_apply {α : Type} (x : S16x256x1.Idx → α) (c : Fin 16) (p k : Fin 256) :
    broadcastTo S16x256x256 x broadcasts_S16x256x1_S16x256x256 (ix3 c p k) = x (ix3 c p (0 : Fin 1)) :=
  broadcastTo_apply x _ (ix3 c p k) (ix3 c p (0 : Fin 1)) fun a =>
    match a with
    | ⟨0, _⟩ => rfl
    | ⟨1, _⟩ => rfl
    | ⟨2, _⟩ => rfl

/-- A [16,256] array viewed as [16,256,1] reads, at (c, p, 0), its entry (c, p): both sit at row-major position
    256·c + p. -/
theorem addUnit_apply {α : Type} (x : S16x256.Idx → α) (c : Fin 16) (p : Fin 256) :
    shapeCast S16x256x1 x shapeCasts_S16x256_S16x256x1 (ix3 c p (0 : Fin 1)) = x (ix2 c p) :=
  shapeCast_apply x _ (ix3 c p (0 : Fin 1)) (ix2 c p) (by
    rw [Shape.rowMajor_val_two, Shape.rowMajor_val_three]
    show c.val * 256 + p.val = (c.val * 256 + p.val) * 1 + 0
    omega)

/-! ## The cell and the offset at an index

Entry by entry the block's chain — times fifteen, floor, conversion to a signed word, maximum with 0, minimum with 14 —
is `Spec.cell` of the entry, and the scaled entry less the cell read back as a real is `Spec.frac`: over the extended
reals every one of these operations is the definition's own, so once the view as [16,256,1] is read through, each
equation holds by unfolding. The first block (`a` = u) gives the column data (x0, fx), the second (`a` = v) the row
data (y0, fy); the program states the two chains separately, so there are two of each lemma. -/

/-- The column cell x0 at (c, p, 0). -/
theorem cellU_apply (a : Vec Ideal S16x256 .f32) (c : Fin 16) (p : Fin 256) :
    k0_pay8 (F := Ideal) a (ix3 c p (0 : Fin 1)) = Cert.Spec.cell (a (ix2 c p)) :=
  addUnit_apply (k0_pay4 (F := Ideal) a) c p

/-- The row cell y0 at (c, p, 0). -/
theorem cellV_apply (a : Vec Ideal S16x256 .f32) (c : Fin 16) (p : Fin 256) :
    k0_pay9 (F := Ideal) a (ix3 c p (0 : Fin 1)) = Cert.Spec.cell (a (ix2 c p)) :=
  addUnit_apply (k0_pay5 (F := Ideal) a) c p

/-- The column offset fx at (c, p, 0). -/
theorem fracU_apply (a : Vec Ideal S16x256 .f32) (c : Fin 16) (p : Fin 256) :
    k0_pay6 (F := Ideal) a (ix3 c p (0 : Fin 1)) = Cert.Spec.frac (a (ix2 c p)) :=
  addUnit_apply (subf (k0_pay2 (F := Ideal) a) (sitofp .f32 (k0_pay4 (F := Ideal) a))) c p

/-- The row offset fy at (c, p, 0). -/
theorem fracV_apply (a : Vec Ideal S16x256 .f32) (c : Fin 16) (p : Fin 256) :
    k0_pay7 (F := Ideal) a (ix3 c p (0 : Fin 1)) = Cert.Spec.frac (a (ix2 c p)) :=
  addUnit_apply (subf (k0_pay3 (F := Ideal) a) (sitofp .f32 (k0_pay5 (F := Ideal) a))) c p

/-! ## The row and the column of a lane, as words

The program has no floor division on signed words: it divides rounding toward zero and then subtracts one where the
signs of the dividend and of the divisor differ and the remainder is not zero. The sign of a word n is the word
[n > 0] - [n < 0]. -/

/-- The floor quotient by 16 of a signed word `n`, as the block computes it. -/
def rowWord (n : BitVec 32) : BitVec 32 :=
  Scalar.select
    (IntOp.andi
      (IntOp.cmpi .ne
        (IntOp.subi ((IntOp.cmpi .sgt n 0#32).setWidth 32) ((IntOp.cmpi .slt n 0#32).setWidth 32))
        (Scalar.subi (Scalar.extui (Scalar.cmpi .sgt 16#32 0#32)) (Scalar.extui (Scalar.cmpi .slt 16#32 0#32))))
      (IntOp.cmpi .ne (IntOp.remsi .vector n 16#32) 0#32))
    (IntOp.subi (IntOp.divsi .vector n 16#32) 1#32)
    (IntOp.divsi .vector n 16#32)

/-- What is left of `n` once 16 times that quotient is taken away. -/
def colWord (n : BitVec 32) : BitVec 32 := IntOp.subi n (IntOp.muli (rowWord n) 16#32)

/-- For a lane number 0 ≤ k < 256 the floor quotient is k / 16. (Such a k is not negative, so its sign differs from
    the sign of 16 only at k = 0, where the remainder is zero: nothing is ever subtracted, and the quotient rounded
    toward zero of two non-negative numbers is the natural one. The divisor is neither 0 nor -1, so the division is
    nowhere at its exceptional operands.) There are 256 lanes: each is checked by evaluation. -/
theorem rowWord_ofNat : ∀ k : Fin 256, rowWord (BitVec.ofNat 32 k.val) = BitVec.ofNat 32 (k.val / 16) := by
  decide

/-- And what is left is k mod 16 = k - 16·(k / 16), which does not wrap below 2³². Again checked lane by lane. -/
theorem colWord_ofNat : ∀ k : Fin 256, colWord (BitVec.ofNat 32 k.val) = BitVec.ofNat 32 (k.val % 16) := by
  decide

/-- The lane numbers: the [16,256,256] array whose entry (c, p, k) is k. -/
abbrev lane : IVec S16x256x256 32 := iota .tc S16x256x256 32 [2] iota_S16x256x256_d2_w32

/-- Its entry (c, p, k) is the word of k. -/
theorem lane_apply (c : Fin 16) (p k : Fin 256) : lane (ix3 c p k) = BitVec.ofNat 32 k.val :=
  iota_single_apply .tc S16x256x256 32 2 iota_S16x256x256_d2_w32 (ix3 c p k)

/-- The rows of all lanes, in the program's words: the quotient rounded toward zero, the comparison of signs and the
    splat of 16 are the three arrays the first half of the block hands to the second. -/
abbrev rowVec : IVec S16x256x256 32 :=
  select (andi k0_pay11 (cmpi .ne (remsi lane k0_pay12) (broadcast S16x256x256 0#32)))
    (subi k0_pay10 (broadcast S16x256x256 1#32)) k0_pay10

/-- The columns of all lanes. -/
abbrev colVec : IVec S16x256x256 32 := subi lane (muli rowVec (broadcast S16x256x256 16#32))

/-- Lane k lies in row k / 16: entry by entry the array of rows is `rowWord` of the lane number. -/
theorem row_apply (c : Fin 16) (p k : Fin 256) : rowVec (ix3 c p k) = BitVec.ofNat 32 (k.val / 16) :=
  (show rowVec (ix3 c p k) = rowWord (lane (ix3 c p k)) from rfl).trans
    ((congrArg rowWord (lane_apply c p k)).trans (rowWord_ofNat k))

/-- Lane k lies in column k mod 16. -/
theorem col_apply (c : Fin 16) (p k : Fin 256) : colVec (ix3 c p k) = BitVec.ofNat 32 (k.val % 16) :=
  (show colVec (ix3 c p k) = colWord (lane (ix3 c p k)) from rfl).trans
    ((congrArg colWord (lane_apply c p k)).trans (colWord_ofNat k))

/-! ## The nested choice is `blend` -/

/-- The word of a number r < 16 is the word z exactly when r is z read as a natural number: the comparison's bit is
    set if and only if r = z.toNat. -/
theorem cmpi_eq_ofNat (r : Nat) (hr : r < 16) (z : BitVec 32) :
    IntOp.cmpi .eq (BitVec.ofNat 32 r) z = 1#1 ↔ r = z.toNat := by
  have hn : (BitVec.ofNat 32 r).toNat = r := by rw [BitVec.toNat_ofNat]; omega
  show BitVec.ofBool (BitVec.ofNat 32 r == z) = 1#1 ↔ _
  by_cases h : BitVec.ofNat 32 r = z
  · rw [beq_iff_eq.2 h]
    exact ⟨fun _ => by rw [← h, hn], fun _ => rfl⟩
  · rw [beq_eq_false_iff_ne.2 h]
    exact ⟨fun h1 => absurd h1 (by decide), fun h1 => absurd (BitVec.eq_of_toNat_eq (hn.trans h1)) h⟩

/-- "A if r is the cell, else B if r is the cell plus one, else C", on words, is the same choice on natural numbers.
    The cell is at most 14, so adding one to its word does not wrap: the successor word reads as the successor. -/
theorem select_blend (u : EReal) (r : Nat) (hr : r < 16) (A B C : EReal) :
    Scalar.select (IntOp.cmpi .eq (BitVec.ofNat 32 r) (Cert.Spec.cell u)) A
      (Scalar.select (IntOp.cmpi .eq (BitVec.ofNat 32 r) (IntOp.addi (Cert.Spec.cell u) 1#32)) B C)
      = if r = (Cert.Spec.cell u).toNat then A else if r = (Cert.Spec.cell u).toNat + 1 then B else C := by
  have hle := Cert.Spec.cell_toNat_le u
  have hsucc : (IntOp.addi (Cert.Spec.cell u) 1#32).toNat = (Cert.Spec.cell u).toNat + 1 := by
    show ((Cert.Spec.cell u) + 1#32).toNat = _
    rw [BitVec.toNat_add]
    show ((Cert.Spec.cell u).toNat + 1) % 2 ^ 32 = _
    omega
  have h1 := cmpi_eq_ofNat r hr (Cert.Spec.cell u)
  have h2 := cmpi_eq_ofNat r hr (IntOp.addi (Cert.Spec.cell u) 1#32)
  rw [hsucc] at h2
  by_cases e1 : r = (Cert.Spec.cell u).toNat
  · rw [if_pos e1, h1.2 e1, select_one]
  · rw [if_neg e1, eq_zero_of_ne_one (fun h => e1 (h1.1 h)), select_zero]
    by_cases e2 : r = (Cert.Spec.cell u).toNat + 1
    · rw [if_pos e2, h2.2 e2, select_one]
    · rw [if_neg e2, eq_zero_of_ne_one (fun h => e2 (h2.1 h)), select_zero]

/-! ## One factor of the weight

The row factor and the column factor are the same expression of three arrays: `idx`, the row (or column) of every
lane; `z`, the cell as [16,256,1]; `f`, the offset as [16,256,1]. If at (c, p, k) the lane lies in row (column) r, and
z and f at (c, p, 0) are the cell and the offset of a coordinate u, the expression at (c, p, k) is `blend u r`: the
spreads along the lanes read (c, p, 0), the views of a [16,256,1] array as itself change nothing, the constants are
`one` and `zero`, and what remains is the nested choice above. -/

theorem factor_apply (idx : IVec S16x256x256 32) (z : IVec S16x256x1 32) (f : FVec Ideal S16x256x1 .f32)
    (c : Fin 16) (p k : Fin 256) (r : Nat) (hr : r < 16) (u : EReal)
    (hidx : idx (ix3 c p k) = BitVec.ofNat 32 r) (hz : z (ix3 c p (0 : Fin 1)) = Cert.Spec.cell u)
    (hf : f (ix3 c p (0 : Fin 1)) = Cert.Spec.frac u) :
    select (cmpi .eq idx (broadcastTo S16x256x256 z broadcasts_S16x256x1_S16x256x256))
      (broadcastTo S16x256x256
        (shapeCast S16x256x1 (subf (broadcast S16x256x1 (Scalar.ofBits (F := Ideal) .f32 0x3F800000#32)) f) shapeCasts_S16x256x1_S16x256x1)
        broadcasts_S16x256x1_S16x256x256)
      (select (cmpi .eq idx (broadcastTo S16x256x256 (addi z (broadcast S16x256x1 1#32)) broadcasts_S16x256x1_S16x256x256))
        (broadcastTo S16x256x256 (shapeCast S16x256x1 f shapeCasts_S16x256x1_S16x256x1) broadcasts_S16x256x1_S16x256x256)
        (broadcast S16x256x256 (Scalar.ofBits (F := Ideal) .f32 0x00000000#32))) (ix3 c p k)
      = Cert.Spec.blend u r := by
  -- the two views of a [16,256,1] array as itself
  rw [shapeCast_self, shapeCast_self]
  -- the choices, the comparisons and the splat constant, entry by entry
  show Scalar.select (IntOp.cmpi .eq (idx (ix3 c p k)) (broadcastTo S16x256x256 z broadcasts_S16x256x1_S16x256x256 (ix3 c p k)))
      (broadcastTo S16x256x256 (subf (broadcast S16x256x1 (Scalar.ofBits (F := Ideal) .f32 0x3F800000#32)) f) broadcasts_S16x256x1_S16x256x256 (ix3 c p k))
      (Scalar.select (IntOp.cmpi .eq (idx (ix3 c p k)) (broadcastTo S16x256x256 (addi z (broadcast S16x256x1 1#32)) broadcasts_S16x256x1_S16x256x256 (ix3 c p k)))
        (broadcastTo S16x256x256 f broadcasts_S16x256x1_S16x256x256 (ix3 c p k))
        Cert.Spec.zero) = _
  -- the four spreads along the lanes read (c, p, 0); the lane is in row (column) r
  rw [bcast_apply, bcast_apply, bcast_apply, bcast_apply, hidx]
  -- at (c, p, 0): the difference, the sum and the constant one, entry by entry
  show Scalar.select (IntOp.cmpi .eq (BitVec.ofNat 32 r) (z (ix3 c p (0 : Fin 1))))
      (Cert.Spec.one - f (ix3 c p (0 : Fin 1)))
      (Scalar.select (IntOp.cmpi .eq (BitVec.ofNat 32 r) (IntOp.addi (z (ix3 c p (0 : Fin 1))) 1#32))
        (f (ix3 c p (0 : Fin 1))) Cert.Spec.zero) = _
  rw [hz, hf]
  exact select_blend u r hr _ _ _

/-! ## The weight -/

/-- THE WEIGHT AT AN INDEX. With `a1` the block of u-coordinates and `a2` the block of v-coordinates, the weight the
    block builds for sample p of complex c at lane k is the row weight of row k / 16 from v times the column weight of
    column k mod 16 from u. -/
theorem weight_apply (a1 a2 : Vec Ideal S16x256 .f32) (c : Fin 16) (p k : Fin 256) :
    k0_pay13 (F := Ideal) (k0_pay6 a1) (k0_pay7 a2) (k0_pay8 a1) (k0_pay9 a2)
        (iota .tc S16x256x256 32 [2] iota_S16x256x256_d2_w32) k0_pay10 k0_pay11 k0_pay12 (ix3 c p k)
      = Cert.Spec.blend (a2 (ix2 c p)) (k.val / 16) * Cert.Spec.blend (a1 (ix2 c p)) (k.val % 16) :=
  congrArg₂ (· * ·)
    (factor_apply rowVec (k0_pay9 a2) (k0_pay7 a2) c p k (k.val / 16) (by have := k.isLt; omega) (a2 (ix2 c p))
      (row_apply c p k) (cellV_apply a2 c p) (fracV_apply a2 c p))
    (factor_apply colVec (k0_pay8 a1) (k0_pay6 a1) c p k (k.val % 16) (Nat.mod_lt _ (by decide)) (a1 (ix2 c p))
      (col_apply c p k) (cellU_apply a1 c p) (fracU_apply a1 c p))

end Cert.Weight

end
-- ==== Proof.Body.lean ====
/-
  What the kernel body leaves in the output block, read at an index.

  For a block of 16 complexes the body loads the 16 x 256 x 64 block of texels (the 16 x 16 grid flattened row-major into
  256 texels: texel 16 r + s is the grid's (r, s)), and the 16 x 256 blocks of the sample coordinates u and v. It forms the
  weight of texel k for sample p as the product of the row weight of k / 16 (from v) and the column weight of k % 16
  (from u), splits the texels and the weights into a rounded part and the rest, and contracts over the texels. When
  every loaded entry is a real number the rest terms vanish and the contraction of a texel with a product of two
  two-point weights is the two-step blend of the four corner texels: entry (c, p, f) of the block is the bilinear fetch
  from complex c's grid, feature f, at sample p's coordinates.
-/
import proofs.«115967_j30502857736195_2_alg».proof.Proof.Gen.KernelIdeal.Frame
import proofs.«115967_j30502857736195_2_alg».proof.Proof.Spec
import proofs.«115967_j30502857736195_2_alg».proof.Proof.Algebra
import proofs.«115967_j30502857736195_2_alg».proof.Proof.Contraction
import proofs.«115967_j30502857736195_2_alg».proof.Proof.Weight

set_option maxRecDepth 16384

noncomputable section

open scoped BigOperators

namespace Cert.Body

open Idealize.ShloMosaic Idealize.ShloMosaic.ValueIdx Cert.KernelIdeal Cert.KernelIdeal.Gen

theorem zeros3 : (![0, 0, 0] : Fin 3 → Nat) = fun _ => 0 := funext fun a => by fin_cases a <;> rfl
theorem zeros2 : (![0, 0] : Fin 2 → Nat) = fun _ => 0 := funext fun a => by fin_cases a <;> rfl

/-- Texel (r, s) of complex `c`, feature `f`, in a block whose texel axis is the grid flattened row-major; the row and the
    column clamped into the grid, as in `Spec.tex`. -/
def blockTex (x0 : Vec Ideal S16x256x64 .f32) (c : Fin 16) (f : Fin 64) (r s : Nat) : EReal :=
  x0 (ix3 c (⟨16 * min r 15 + min s 15, by omega⟩ : Fin 256) f)

/-- Texel k of the flattened axis is the grid's (k / 16, k % 16). -/
theorem blockTex_flat (x0 : Vec Ideal S16x256x64 .f32) (c : Fin 16) (f : Fin 64) (k : Fin 256) :
    blockTex x0 c f (k.val / 16) (k.val % 16) = x0 (ix3 c k f) := by
  unfold blockTex
  refine congrArg x0 (congrArg (fun q => ix3 c q f) (Fin.ext ?_))
  show 16 * min (k.val / 16) 15 + min (k.val % 16) 15 = k.val
  have := k.isLt
  omega

/-- The rounded texels are the texels: a rounding is the identity on the extended reals. -/
theorem hi_apply (x0 : Vec Ideal S16x256x64 .f32) (i : S16x256x64.Idx) : k0_pay15 (F := Ideal) x0 i = x0 i := by
  show shapeCast S16x256x64 x0 shapeCasts_S16x256x64_S16x256x64 i = x0 i
  rw [shapeCast_self]

/-- The rest of the texels is each texel less itself. -/
theorem lo_apply (x0 : Vec Ideal S16x256x64 .f32) (i : S16x256x64.Idx) : k0_pay16 (F := Ideal) x0 i = x0 i - x0 i := by
  show shapeCast S16x256x64 x0 shapeCasts_S16x256x64_S16x256x64 i - shapeCast S16x256x64 x0 shapeCasts_S16x256x64_S16x256x64 i = _
  rw [shapeCast_self]

/-- THE OUTPUT BLOCK at entry (c, p, f), when every loaded entry is a real number: the bilinear fetch from the block's
    texels of complex `c`, feature `f`, at the coordinates of sample `p`. -/
theorem out_apply (x0 : Vec Ideal S16x256x64 .f32) (x1 x2 : Vec Ideal S16x256 .f32)
    (h0 : ∀ i, ∃ r : ℝ, x0 i = (r : EReal)) (h1 : ∀ i, ∃ r : ℝ, x1 i = (r : EReal)) (h2 : ∀ i, ∃ r : ℝ, x2 i = (r : EReal))
    (c : Fin 16) (p : Fin 256) (f : Fin 64) :
    out0_3 (F := Ideal) x0 x1 x2 (ix3 c p f) = Cert.Spec.bilinear (blockTex x0 c f) (x1 (ix2 c p)) (x2 (ix2 c p)) := by
  unfold out0_3
  rw [View.canon_unit_zero zeros3]
  simp only [View.ld_unit_zero (S := S16x256) zeros2, View.ld_unit_zero (S := S16x256x64) zeros3]
  rw [Cert.Contraction.pay1_apply]
  have hw : ∀ k : Fin 256, k0_pay13 (F := Ideal) (k0_pay6 x1) (k0_pay7 x2) (k0_pay8 x1) (k0_pay9 x2)
      (iota .tc S16x256x256 32 [2] iota_S16x256x256_d2_w32) k0_pay10 k0_pay11 k0_pay12 (ix3 c p k)
        = Cert.Spec.blend (x2 (ix2 c p)) (k.val / 16) * Cert.Spec.blend (x1 (ix2 c p)) (k.val % 16) :=
    fun k => Cert.Weight.weight_apply x1 x2 c p k
  have hwh : ∀ k : Fin 256, k0_pay17 (F := Ideal) (k0_pay6 x1) (k0_pay7 x2) (k0_pay8 x1) (k0_pay9 x2)
      (iota .tc S16x256x256 32 [2] iota_S16x256x256_d2_w32) k0_pay10 k0_pay11 k0_pay12 (ix3 c p k)
        = Cert.Spec.blend (x2 (ix2 c p)) (k.val / 16) * Cert.Spec.blend (x1 (ix2 c p)) (k.val % 16) :=
    fun k => hw k
  simp only [hw, hwh, hi_apply, lo_apply, ← blockTex_flat x0 c f]
  exact Cert.Spec.contraction_eq_bilinear (blockTex x0 c f) (x1 (ix2 c p)) (x2 (ix2 c p)) (fun r s => h0 _) (h1 _) (h2 _)

end Cert.Body

end
-- ==== Proof.KernelArray.lean ====
/-
  From blocks to the array: what the idealized kernel's run leaves in its result array.

  The launch walks 128 grid points; point t stages complexes 16 t … 16 t + 15 of the three inputs (the texel grids, flattened
  by a reshape before the launch, and the two coordinate arrays) and writes back the same complexes of the output. What a
  point writes back is, entry by entry, the bilinear fetch of the specification read at the array's own index (when every
  input entry is a real number), the 128 blocks tile the output array, so the array ends holding the specification's
  result everywhere.
-/
import proofs.«115967_j30502857736195_2_alg».proof.Proof.Gen.KernelIdeal.Value
import proofs.«115967_j30502857736195_2_alg».proof.Proof.Spec
import proofs.«115967_j30502857736195_2_alg».proof.Proof.Body
import Idealize.ShloMosaic.Lib.ValueIdx
import Idealize.ShloMosaic.Lib.Pipeline.Value
import Idealize.ShloMosaic.Lib.StableHlo.Run

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The printed index maps, decided over the grid: at point `t` every window is at block `t` on the complex axis and at
    block 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The array window 0 stages is the texel array reshaped by the host before the launch: the grids flattened row-major. -/
theorem V_main_v0 (c : Dev nD) :
    (V m c main_v0 : S2048x256x64.Idx → EReal) = shapeCast S2048x256x64 (m ((c : Thread nD τ).loc main_arg0)) shapeCasts_S2048x16x16x64_S2048x256x64 := by
  dsimp only [Gen.V, Gen.hostOps0]; after_results; rfl

/-- The flattened grid at (C, 16 r + s, f) is the grid at (C, r, s, f). -/
theorem grid_apply (mp : S2048x16x16x64.Idx → EReal) (C : Fin 2048) (r s : Fin 16) (f : Fin 64) :
    shapeCast S2048x256x64 mp shapeCasts_S2048x16x16x64_S2048x256x64 (ix3 C (⟨16 * r.val + s.val, by omega⟩ : Fin 256) f) = mp (ix4 C r s f) := by
  refine shapeCast_apply mp _ _ (ix4 C r s f) ?_
  rw [Shape.rowMajor_val_three, Shape.rowMajor_val_four]
  show ((C.val * 16 + r.val) * 16 + s.val) * 64 + f.val = (C.val * 256 + (16 * r.val + s.val)) * 64 + f.val
  omega

/-- WHAT POINT `t` WRITES BACK is block `t` of the specification's result of the argument arrays, when every entry of the
    arguments is a real number. -/
theorem flushed_eq (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (t : Fin cfg0.N) :
    (dats m 0 c).flushed 3 t = ((cfg0.win 3).blk t).view.read (Elt Ideal)
      (Cert.Spec.G (m ((c : Thread nD τ).loc main_arg0)) (m ((c : Thread nD τ).loc main_arg1)) (m ((c : Thread nD τ).loc main_arg2))) := by
  rw [Cert.KernelIdeal.Value.flushed3]
  funext j
  obtain ⟨a, p, f, rfl⟩ : ∃ (a : Fin 16) (p : Fin 256) (f : Fin 64), j = ix3 a p f := ⟨j 0, j 1, j 2, eq_ix3 j⟩
  show out0_3 (iblk m c 0 t) (iblk m c 1 t) (iblk m c 2 t) (ix3 a p f) = _
  obtain ⟨i00, i01, i02, i10, i11, i20, i21, i30, i31, i32⟩ := idx_facts t
  have ht : t.val < 128 := lt_of_lt_of_eq t.isLt N_0
  -- the output block's entry (a, p, f) is the array's entry (16 t + a, p, f)
  have eo : ((cfg0.win 3).blk t).view.emb (ix3 a p f) = ix3 (⟨16 * t.val + a.val, by omega⟩ : Fin 2048) p f := by
    funext d; apply Fin.ext
    match d with
    | ⟨0, _⟩ => show win0_3.index t (0 : Fin 3) * 16 + 1 * a.val = 16 * t.val + a.val; omega
    | ⟨1, _⟩ => show win0_3.index t (1 : Fin 3) * 256 + 1 * p.val = p.val; omega
    | ⟨2, _⟩ => show win0_3.index t (2 : Fin 3) * 64 + 1 * f.val = f.val; omega
  -- the coordinate blocks' entry (a, p) is the arrays' entry (16 t + a, p)
  have e1 : ∀ q : Fin 256, ((cfg0.win 1).blk t).view.emb (ix2 a q) = ix2 (⟨16 * t.val + a.val, by omega⟩ : Fin 2048) q := fun q => by
    funext d; apply Fin.ext
    match d with
    | ⟨0, _⟩ => show win0_1.index t (0 : Fin 2) * 16 + 1 * a.val = 16 * t.val + a.val; omega
    | ⟨1, _⟩ => show win0_1.index t (1 : Fin 2) * 256 + 1 * q.val = q.val; omega
  have e2 : ∀ q : Fin 256, ((cfg0.win 2).blk t).view.emb (ix2 a q) = ix2 (⟨16 * t.val + a.val, by omega⟩ : Fin 2048) q := fun q => by
    funext d; apply Fin.ext
    match d with
    | ⟨0, _⟩ => show win0_2.index t (0 : Fin 2) * 16 + 1 * a.val = 16 * t.val + a.val; omega
    | ⟨1, _⟩ => show win0_2.index t (1 : Fin 2) * 256 + 1 * q.val = q.val; omega
  have e0 : ∀ k : Fin 256, ((cfg0.win 0).blk t).view.emb (ix3 a k f) = ix3 (⟨16 * t.val + a.val, by omega⟩ : Fin 2048) k f := fun k => by
    funext d; apply Fin.ext
    match d with
    | ⟨0, _⟩ => show win0_0.index t (0 : Fin 3) * 16 + 1 * a.val = 16 * t.val + a.val; omega
    | ⟨1, _⟩ => show win0_0.index t (1 : Fin 3) * 256 + 1 * k.val = k.val; omega
    | ⟨2, _⟩ => show win0_0.index t (2 : Fin 3) * 64 + 1 * f.val = f.val; omega
  -- every entry of the three blocks is a real number
  have b0 : ∀ i, ∃ r : ℝ, iblk m c 0 t i = (r : EReal) := fun i => by
    show ∃ r : ℝ, V m c main_v0 (((cfg0.win 0).blk t).view.emb i) = (r : EReal)
    rw [V_main_v0]; exact h0 _
  have b1 : ∀ i, ∃ r : ℝ, iblk m c 1 t i = (r : EReal) := fun i => by
    show ∃ r : ℝ, V m c main_arg1 (((cfg0.win 1).blk t).view.emb i) = (r : EReal)
    rw [V_main_arg1]; exact h1 _
  have b2 : ∀ i, ∃ r : ℝ, iblk m c 2 t i = (r : EReal) := fun i => by
    show ∃ r : ℝ, V m c main_arg2 (((cfg0.win 2).blk t).view.emb i) = (r : EReal)
    rw [V_main_arg2]; exact h2 _
  refine (Cert.Body.out_apply (iblk m c 0 t) (iblk m c 1 t) (iblk m c 2 t) b0 b1 b2 a p f).trans ?_
  show _ = Cert.Spec.G _ _ _ (((cfg0.win 3).blk t).view.emb (ix3 a p f))
  rw [eo]
  show _ = Cert.Spec.bilinear (Cert.Spec.tex (m ((c : Thread nD τ).loc main_arg0)) (⟨16 * t.val + a.val, by omega⟩ : Fin 2048) f)
    (m ((c : Thread nD τ).loc main_arg1) (ix2 (⟨16 * t.val + a.val, by omega⟩ : Fin 2048) p))
    (m ((c : Thread nD τ).loc main_arg2) (ix2 (⟨16 * t.val + a.val, by omega⟩ : Fin 2048) p))
  have c1 : iblk m c 1 t (ix2 a p) = m ((c : Thread nD τ).loc main_arg1) (ix2 (⟨16 * t.val + a.val, by omega⟩ : Fin 2048) p) := by
    show V m c main_arg1 (((cfg0.win 1).blk t).view.emb (ix2 a p)) = _
    rw [V_main_arg1, e1]
  have c2 : iblk m c 2 t (ix2 a p) = m ((c : Thread nD τ).loc main_arg2) (ix2 (⟨16 * t.val + a.val, by omega⟩ : Fin 2048) p) := by
    show V m c main_arg2 (((cfg0.win 2).blk t).view.emb (ix2 a p)) = _
    rw [V_main_arg2, e2]
  have c0 : Cert.Body.blockTex (iblk m c 0 t) a f = Cert.Spec.tex (m ((c : Thread nD τ).loc main_arg0)) (⟨16 * t.val + a.val, by omega⟩ : Fin 2048) f := by
    funext r s
    show V m c main_v0 (((cfg0.win 0).blk t).view.emb (ix3 a (⟨16 * min r 15 + min s 15, by omega⟩ : Fin 256) f)) = _
    rw [e0, V_main_v0]
    exact grid_apply _ _ (⟨min r 15, by omega⟩ : Fin 16) (⟨min s 15, by omega⟩ : Fin 16) f
  rw [c0, c1, c2]

/-- An index of the output array is in point `t`'s block iff each coordinate is in the block's range on its axis. -/
theorem mem_blk (t : Fin cfg0.N) (i : S2048x256x64.Idx) :
    i ∈ ((cfg0.win 3).blk t).view.set ↔ ∀ d : Fin 3, win0_3.index t d * S16x256x64.size d ≤ (i d).val ∧ (i d).val < win0_3.index t d * S16x256x64.size d + S16x256x64.size d := by
  show i ∈ ((View.whole main_v1).slice (win0_3.rect t)).set ↔ _
  rw [View.set_slice_whole, Rect.mem_set_unit]
  exact Iff.rfl

/-- Every entry of the output array is in the block of the point that holds its complex: complex C is in block C / 16. -/
theorem cover (i : S2048x256x64.Idx) : ∃ t : Fin cfg0.N, (cfg0.win 3).flush t = true ∧ i ∈ ((cfg0.win 3).blk t).view.set := by
  have hi0 : (i 0).val < 2048 := (i 0).isLt
  have hi1 : (i 1).val < 256 := (i 1).isLt
  have hi2 : (i 2).val < 64 := (i 2).isLt
  refine ⟨⟨(i 0).val / 16, lt_of_lt_of_eq (by omega) N_0.symm⟩, flush0_3 _, ?_⟩
  rw [mem_blk]
  obtain ⟨-, -, -, -, -, -, -, i30, i31, i32⟩ := idx_facts ⟨(i 0).val / 16, lt_of_lt_of_eq (by omega) N_0.symm⟩
  intro d
  match d with
  | ⟨0, _⟩ => show win0_3.index _ (0 : Fin 3) * 16 ≤ (i 0).val ∧ (i 0).val < win0_3.index _ (0 : Fin 3) * 16 + 16; rw [i30]; show (i 0).val / 16 * 16 ≤ _ ∧ _ < (i 0).val / 16 * 16 + 16; omega
  | ⟨1, _⟩ => show win0_3.index _ (1 : Fin 3) * 256 ≤ (i 1).val ∧ (i 1).val < win0_3.index _ (1 : Fin 3) * 256 + 256; rw [i31]; omega
  | ⟨2, _⟩ => show win0_3.index _ (2 : Fin 3) * 64 ≤ (i 2).val ∧ (i 2).val < win0_3.index _ (2 : Fin 3) * 64 + 64; rw [i32]; omega

/-- THE ARRAY after the run: the specification's result of the argument arrays. -/
theorem final (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal)) :
    (dats m 0 c).arrAt 3 cfg0.N
      = Cert.Spec.G (m ((c : Thread nD τ).loc main_arg0)) (m ((c : Thread nD τ).loc main_arg1)) (m ((c : Thread nD τ).loc main_arg2)) :=
  (dats m 0 c).arrAt_eq_of_cover 3 _ (fun t _ => flushed_eq m c h0 h1 h2 t) cover

/-- THE RUN, READ: from a memory whose argument arrays hold real numbers only, every weakly fair execution of the idealized
    kernel terminates with the result array at the specification's result of the arguments, the arguments unchanged. -/
theorem run
    (hfin : ∀ c : Dev nD, (∀ i, ∃ r : ℝ, m ((c : Thread nD τ).loc main_arg0) i = (r : EReal))
      ∧ (∀ i, ∃ r : ℝ, m ((c : Thread nD τ).loc main_arg1) i = (r : EReal))
      ∧ (∀ i, ∃ r : ℝ, m ((c : Thread nD τ).loc main_arg2) i = (r : EReal))) :
    θ_run defs (onTc (τ := τ) (main (F := Ideal))) ⟨m, fun _ => 0, ρ⟩ fun r => ∀ c : Dev nD,
      r.2.mem ((c : Thread nD τ).loc main_v1)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2.1 (hfin c).2.2), (h c).2⟩)
    (Cert.KernelIdeal.Value.run_blocks m ρ)

end Cert.KernelArray
end
-- ==== Proof.RefStages.lean ====
/-
  The reference's coordinate stages, read at an index.

  From a sample's two coordinates the reference computes, for each of them, the scaled coordinate, its cell (the clamped
  floor, a signed 32-bit word) and the offset inside the cell: these are the functions scaled, cell and frac of the
  specification, reached stage by stage. It then prepares the integer triples (complex, row, column) at which it fetches
  the four corner texels: the complex is the running row number, and a row or a column is the cell or its successor. Each
  component passes through the rule for negative indices (a negative index i stands for i + size); no component is ever
  negative, the complex being below 2048 and a cell lying in [0, 14], so the rule leaves every one of them as it is.
  Last, the four weights one - fx, fx, one - fy, fy, each spread over the 64 features.
-/
import proofs.«115967_j30502857736195_2_alg».proof.Proof.Gen.ReferenceIdeal.Read
import proofs.«115967_j30502857736195_2_alg».proof.Proof.Spec

noncomputable section

namespace Cert.RefValue

open Idealize.ShloMosaic Idealize.ShloMosaic.ValueIdx Cert.ReferenceIdeal Cert.ReferenceIdeal.Read Cert.Spec

/-! ## Words -/

/-- The rule for negative indices leaves a word that is not negative, read signed, as it is. -/
theorem wrap_of_nonneg (i n : BitVec 32) (h : 0 ≤ i.toInt) :
    Scalar.select (IntOp.cmpi .slt i 0#32) (IntOp.addi i n) i = i := by
  have hs : i.slt 0#32 = false := by
    have h0 : (0#32).toInt = 0 := by decide
    simp only [BitVec.slt, h0, decide_eq_false_iff_not]
    omega
  show (if BitVec.ofBool (i.slt 0#32) = 1 then IntOp.addi i n else i) = i
  rw [hs]
  exact if_neg (by decide)

/-- A word below 2^31, read unsigned, reads the same signed. -/
theorem toInt_of_small (i : BitVec 32) (h : i.toNat < 2147483648) : i.toInt = (i.toNat : Int) := by
  have hc := BitVec.toInt_eq_toNat_cond i
  split at hc <;> omega

/-- The word of a natural number below 2048 reads, signed, as that number. -/
theorem ofNat_toInt (c : Nat) (hc : c < 2048) : (BitVec.ofNat 32 c).toInt = (c : Int) := by
  have hn : (BitVec.ofNat 32 c).toNat = c := by
    rw [BitVec.toNat_ofNat]; omega
  rw [toInt_of_small _ (by omega), hn]

/-- So the rule for negative indices leaves a row number below 2048 as it is. -/
theorem row_wrap (c : Nat) (hc : c < 2048) (n : BitVec 32) :
    Scalar.select (IntOp.cmpi .slt (BitVec.ofNat 32 c) 0#32) (IntOp.addi (BitVec.ofNat 32 c) n) (BitVec.ofNat 32 c)
      = BitVec.ofNat 32 c :=
  wrap_of_nonneg _ _ (by rw [ofNat_toInt c hc]; exact Int.natCast_nonneg c)

/-- The successor of a word in [0, 14] reads, unsigned, as the successor. -/
theorem succ_toNat (i : BitVec 32) (h : i.toNat ≤ 14) : (IntOp.addi i 1#32).toNat = i.toNat + 1 := by
  show (i + 1#32).toNat = i.toNat + 1
  rw [BitVec.toNat_add]
  have h1 : (1#32).toNat = 1 := by decide
  rw [h1]; omega

/-- And signed it reads the same: it is not negative. -/
theorem succ_toInt (i : BitVec 32) (h : i.toNat ≤ 14) : (IntOp.addi i 1#32).toInt = ((i.toNat + 1 : Nat) : Int) := by
  have hn := succ_toNat i h
  rw [toInt_of_small _ (by omega), hn]

/-- So the rule for negative indices leaves the successor of a cell as it is. -/
theorem succ_wrap (u : EReal) (n : BitVec 32) :
    Scalar.select (IntOp.cmpi .slt (IntOp.addi (cell u) 1#32) 0#32) (IntOp.addi (IntOp.addi (cell u) 1#32) n)
      (IntOp.addi (cell u) 1#32) = IntOp.addi (cell u) 1#32 :=
  wrap_of_nonneg _ _ (by rw [succ_toInt _ (cell_toNat_le u)]; exact Int.natCast_nonneg _)

/-- And a cell itself. -/
theorem cell_wrap (u : EReal) (n : BitVec 32) :
    Scalar.select (IntOp.cmpi .slt (cell u) 0#32) (IntOp.addi (cell u) n) (cell u) = cell u :=
  wrap_of_nonneg _ _ (cell_toInt u).1

/-- The three kinds of component of a fetch's triple, read signed and then as natural numbers (as the gather reads
    them): a row number below 2048, a cell, the successor of a cell. -/
theorem ofNat_toInt_toNat (c : Nat) (hc : c < 2048) : (BitVec.ofNat 32 c).toInt.toNat = c := by
  rw [ofNat_toInt c hc]; exact Int.toNat_natCast c
theorem cell_toInt_toNat (u : EReal) : (cell u).toInt.toNat = (cell u).toNat := by
  rw [cell_toInt_eq]; exact Int.toNat_natCast _
theorem succ_toInt_toNat (u : EReal) : (IntOp.addi (cell u) 1#32).toInt.toNat = (cell u).toNat + 1 := by
  rw [succ_toInt _ (cell_toNat_le u)]; exact Int.toNat_natCast _

section Stages

variable (x1 x2 : (⟨S2048x256, .f32⟩ : BufTy).Contents (Elt Ideal))

/-! ## The scaled coordinate, the cell and the offset -/

theorem v1_at (i : S2048x256.Idx) : val_main_v1 (F := Ideal) x1 i = scaled (x1 i) := by
  rw [val_main_v1_apply, val_main_v0_apply, val_main_cst_apply]; rfl
theorem v3_at (i : S2048x256.Idx) : val_main_v3 (F := Ideal) x2 i = scaled (x2 i) := by
  rw [val_main_v3_apply, val_main_v2_apply, val_main_cst_0_apply]; rfl

/-- The clamped floor of the scaled coordinate is the cell. -/
theorem v6_at (i : S2048x256.Idx) : val_main_v6 (F := Ideal) x1 i = cell (x1 i) := by
  rw [val_main_v6_apply, val_main_call0_v4_apply, val_main_call0_v3_apply, val_main_c_1_apply, val_main_call0_v2_apply,
    val_main_call0_v1_apply, val_main_call0_v0_apply, val_main_c_apply, val_main_v5_apply, val_main_v4_apply, v1_at]
  rfl
theorem v9_at (i : S2048x256.Idx) : val_main_v9 (F := Ideal) x2 i = cell (x2 i) := by
  rw [val_main_v9_apply, val_main_call1_v4_apply, val_main_call1_v3_apply, val_main_c_3_apply, val_main_call1_v2_apply,
    val_main_call1_v1_apply, val_main_call1_v0_apply, val_main_c_2_apply, val_main_v8_apply, val_main_v7_apply, v3_at]
  rfl

/-- The scaled coordinate less its cell is the offset. -/
theorem v11_at (i : S2048x256.Idx) : val_main_v11 (F := Ideal) x1 i = frac (x1 i) := by
  rw [val_main_v11_apply, v1_at, val_main_v10_apply, v6_at]; rfl
theorem v14_at (i : S2048x256.Idx) : val_main_v14 (F := Ideal) x2 i = frac (x2 i) := by
  rw [val_main_v14_apply, v3_at, val_main_v13_apply, v9_at]; rfl

variable (c : Fin 2048) (p : Fin 256)

theorem v12_at (k : Fin 1) : val_main_v12 (F := Ideal) x1 (ix3 c p k) = frac (x1 (ix2 c p)) := by
  rw [val_main_v12_apply, show idx_main_v12 (ix3 c p k) = ix2 c p from eq_ix2 _, v11_at]
theorem v15_at (k : Fin 1) : val_main_v15 (F := Ideal) x2 (ix3 c p k) = frac (x2 (ix2 c p)) := by
  rw [val_main_v15_apply, show idx_main_v15 (ix3 c p k) = ix2 c p from eq_ix2 _, v14_at]

/-! ## The complex of a fetch: the running row number

Four times over (once per corner) the reference takes the row number c, passes it through the rule for negative indices
and spreads it over the samples. -/

theorem v22_at (i : S2048x1.Idx) : val_main_v22 (F := Ideal) i = BitVec.ofNat 32 (i 0).val := by
  rw [val_main_v22_apply, val_main_v19_apply, val_main_v18_apply, val_main_c_4_apply, val_main_v21_apply,
    val_main_v17_apply, val_main_v16_apply]
  exact row_wrap _ (i 0).isLt _
theorem v34_at (k : Fin 1) : val_main_v34 (F := Ideal) (ix3 c p k) = BitVec.ofNat 32 c.val := by
  rw [val_main_v34_apply, val_main_v33_apply, v22_at]

theorem v45_at (i : S2048x1.Idx) : val_main_v45 (F := Ideal) i = BitVec.ofNat 32 (i 0).val := by
  rw [val_main_v45_apply, val_main_v42_apply, val_main_v41_apply, val_main_c_11_apply, val_main_v44_apply,
    val_main_v17_apply, val_main_v16_apply]
  exact row_wrap _ (i 0).isLt _
theorem v57_at (k : Fin 1) : val_main_v57 (F := Ideal) (ix3 c p k) = BitVec.ofNat 32 c.val := by
  rw [val_main_v57_apply, val_main_v56_apply, v45_at]

theorem v68_at (i : S2048x1.Idx) : val_main_v68 (F := Ideal) i = BitVec.ofNat 32 (i 0).val := by
  rw [val_main_v68_apply, val_main_v65_apply, val_main_v64_apply, val_main_c_18_apply, val_main_v67_apply,
    val_main_v17_apply, val_main_v16_apply]
  exact row_wrap _ (i 0).isLt _
theorem v80_at (k : Fin 1) : val_main_v80 (F := Ideal) (ix3 c p k) = BitVec.ofNat 32 c.val := by
  rw [val_main_v80_apply, val_main_v79_apply, v68_at]

theorem v93_at (i : S2048x1.Idx) : val_main_v93 (F := Ideal) i = BitVec.ofNat 32 (i 0).val := by
  rw [val_main_v93_apply, val_main_v90_apply, val_main_v89_apply, val_main_c_26_apply, val_main_v92_apply,
    val_main_v17_apply, val_main_v16_apply]
  exact row_wrap _ (i 0).isLt _
theorem v105_at (k : Fin 1) : val_main_v105 (F := Ideal) (ix3 c p k) = BitVec.ofNat 32 c.val := by
  rw [val_main_v105_apply, val_main_v104_apply, v93_at]

/-! ## The row and the column of a fetch: a cell, or its successor, through the rule for negative indices -/

theorem v27_at (i : S2048x256.Idx) : val_main_v27 (F := Ideal) x2 i = cell (x2 i) := by
  rw [val_main_v27_apply, val_main_v24_apply, val_main_v23_apply, val_main_c_6_apply, val_main_v26_apply, v9_at]
  exact cell_wrap _ _
theorem v35_at (k : Fin 1) : val_main_v35 (F := Ideal) x2 (ix3 c p k) = cell (x2 (ix2 c p)) := by
  rw [val_main_v35_apply, show idx_main_v35 (ix3 c p k) = ix2 c p from eq_ix2 _, v27_at]

theorem v32_at (i : S2048x256.Idx) : val_main_v32 (F := Ideal) x1 i = cell (x1 i) := by
  rw [val_main_v32_apply, val_main_v29_apply, val_main_v28_apply, val_main_c_8_apply, val_main_v31_apply, v6_at]
  exact cell_wrap _ _
theorem v36_at (k : Fin 1) : val_main_v36 (F := Ideal) x1 (ix3 c p k) = cell (x1 (ix2 c p)) := by
  rw [val_main_v36_apply, show idx_main_v36 (ix3 c p k) = ix2 c p from eq_ix2 _, v32_at]

theorem v50_at (i : S2048x256.Idx) : val_main_v50 (F := Ideal) x2 i = cell (x2 i) := by
  rw [val_main_v50_apply, val_main_v47_apply, val_main_v46_apply, val_main_c_13_apply, val_main_v49_apply, v9_at]
  exact cell_wrap _ _
theorem v58_at (k : Fin 1) : val_main_v58 (F := Ideal) x2 (ix3 c p k) = cell (x2 (ix2 c p)) := by
  rw [val_main_v58_apply, show idx_main_v58 (ix3 c p k) = ix2 c p from eq_ix2 _, v50_at]

theorem v78_at (i : S2048x256.Idx) : val_main_v78 (F := Ideal) x1 i = cell (x1 i) := by
  rw [val_main_v78_apply, val_main_v75_apply, val_main_v74_apply, val_main_c_22_apply, val_main_v77_apply, v6_at]
  exact cell_wrap _ _
theorem v82_at (k : Fin 1) : val_main_v82 (F := Ideal) x1 (ix3 c p k) = cell (x1 (ix2 c p)) := by
  rw [val_main_v82_apply, show idx_main_v82 (ix3 c p k) = ix2 c p from eq_ix2 _, v78_at]

theorem v55_at (i : S2048x256.Idx) : val_main_v55 (F := Ideal) x1 i = IntOp.addi (cell (x1 i)) 1#32 := by
  rw [val_main_v55_apply, val_main_v52_apply, val_main_v51_apply, val_main_c_15_apply, val_main_v54_apply,
    val_main_v40_apply, val_main_v39_apply, val_main_c_10_apply, v6_at]
  exact succ_wrap _ _
theorem v59_at (k : Fin 1) : val_main_v59 (F := Ideal) x1 (ix3 c p k) = IntOp.addi (cell (x1 (ix2 c p))) 1#32 := by
  rw [val_main_v59_apply, show idx_main_v59 (ix3 c p k) = ix2 c p from eq_ix2 _, v55_at]

theorem v73_at (i : S2048x256.Idx) : val_main_v73 (F := Ideal) x2 i = IntOp.addi (cell (x2 i)) 1#32 := by
  rw [val_main_v73_apply, val_main_v70_apply, val_main_v69_apply, val_main_c_20_apply, val_main_v72_apply,
    val_main_v63_apply, val_main_v62_apply, val_main_c_17_apply, v9_at]
  exact succ_wrap _ _
theorem v81_at (k : Fin 1) : val_main_v81 (F := Ideal) x2 (ix3 c p k) = IntOp.addi (cell (x2 (ix2 c p))) 1#32 := by
  rw [val_main_v81_apply, show idx_main_v81 (ix3 c p k) = ix2 c p from eq_ix2 _, v73_at]

theorem v98_at (i : S2048x256.Idx) : val_main_v98 (F := Ideal) x2 i = IntOp.addi (cell (x2 i)) 1#32 := by
  rw [val_main_v98_apply, val_main_v95_apply, val_main_v94_apply, val_main_c_28_apply, val_main_v97_apply,
    val_main_v86_apply, val_main_v85_apply, val_main_c_24_apply, v9_at]
  exact succ_wrap _ _
theorem v106_at (k : Fin 1) : val_main_v106 (F := Ideal) x2 (ix3 c p k) = IntOp.addi (cell (x2 (ix2 c p))) 1#32 := by
  rw [val_main_v106_apply, show idx_main_v106 (ix3 c p k) = ix2 c p from eq_ix2 _, v98_at]

theorem v103_at (i : S2048x256.Idx) : val_main_v103 (F := Ideal) x1 i = IntOp.addi (cell (x1 i)) 1#32 := by
  rw [val_main_v103_apply, val_main_v100_apply, val_main_v99_apply, val_main_c_30_apply, val_main_v102_apply,
    val_main_v88_apply, val_main_v87_apply, val_main_c_25_apply, v6_at]
  exact succ_wrap _ _
theorem v107_at (k : Fin 1) : val_main_v107 (F := Ideal) x1 (ix3 c p k) = IntOp.addi (cell (x1 (ix2 c p))) 1#32 := by
  rw [val_main_v107_apply, show idx_main_v107 (ix3 c p k) = ix2 c p from eq_ix2 _, v103_at]

/-! ## The four weights, spread over the features -/

variable (f : Fin 64)

theorem v112_at : val_main_v112 (F := Ideal) x1 (ix3 c p f) = one - frac (x1 (ix2 c p)) := by
  rw [val_main_v112_apply, show idx_main_v112 (ix3 c p f) = ix3 c p (0 : Fin 1) from eq_ix3 _, val_main_v111_apply,
    val_main_v110_apply, val_main_cst_32_apply, v12_at]
  rfl

theorem v119_at : val_main_v119 (F := Ideal) x1 (ix3 c p f) = one - frac (x1 (ix2 c p)) := by
  rw [val_main_v119_apply, show idx_main_v119 (ix3 c p f) = ix3 c p (0 : Fin 1) from eq_ix3 _, val_main_v118_apply,
    val_main_v117_apply, val_main_cst_33_apply, v12_at]
  rfl

theorem v126_at : val_main_v126 (F := Ideal) x2 (ix3 c p f) = one - frac (x2 (ix2 c p)) := by
  rw [val_main_v126_apply, show idx_main_v126 (ix3 c p f) = ix3 c p (0 : Fin 1) from eq_ix3 _, val_main_v125_apply,
    val_main_v124_apply, val_main_cst_34_apply, v15_at]
  rfl

theorem v114_at : val_main_v114 (F := Ideal) x1 (ix3 c p f) = frac (x1 (ix2 c p)) := by
  rw [val_main_v114_apply, show idx_main_v114 (ix3 c p f) = ix3 c p (0 : Fin 1) from eq_ix3 _, v12_at]

theorem v121_at : val_main_v121 (F := Ideal) x1 (ix3 c p f) = frac (x1 (ix2 c p)) := by
  rw [val_main_v121_apply, show idx_main_v121 (ix3 c p f) = ix3 c p (0 : Fin 1) from eq_ix3 _, v12_at]

theorem v128_at : val_main_v128 (F := Ideal) x2 (ix3 c p f) = frac (x2 (ix2 c p)) := by
  rw [val_main_v128_apply, show idx_main_v128 (ix3 c p f) = ix3 c p (0 : Fin 1) from eq_ix3 _, v15_at]

end Stages

end Cert.RefValue

end
-- ==== Proof.RefGather.lean ====
/-
  Two shape operations of the reference, read at an index, over its literal shapes and at any element type.

  The reference fetches a texel by an integer triple (complex, row, column). It first lays the three coordinates side by
  side: three arrays of shape [2048, 256, 1] are joined along the last axis into one array of shape [2048, 256, 3], so that
  entry (c, p, k) of the joined array is entry (c, p, 0) of the k-th piece. It then gathers: entry (c, p, f) of the result
  is the operand [2048, 16, 16, 64] at (i0, i1, i2, f), where (i0, i1, i2) is the triple stored at (c, p, ·), each
  component read as a signed integer and clamped into the operand's range on its axis (a start index below zero reads
  position 0, one beyond the last position reads the last position).
-/
import Idealize.ShloMosaic.Lib.Pipeline.Value
import Idealize.ShloMosaic.Lib.ValueIdx

noncomputable section

namespace Cert.RefGather

open Idealize.ShloMosaic Idealize.ShloMosaic.ValueIdx

variable {α : Type}

/-! ## Three one-wide pieces joined along the last axis -/

/-- The shape of one piece, and of the three joined. -/
abbrev P1 : Shape := ⟨3, ![2048, 256, 1]⟩
abbrev P3 : Shape := ⟨3, ![2048, 256, 3]⟩

/-- Entry (c, p, 0) of the joined array is the first piece's entry (c, p, 0): no piece lies before it. -/
theorem concat3_apply_0 (h : Shape.Concatenates [P1, P1, P1] P3 2) (y0 y1 y2 : P1.Idx → α) (c : Fin 2048) (p : Fin 256) :
    concatenate P3 2 [⟨P1, y0⟩, ⟨P1, y1⟩, ⟨P1, y2⟩] h (ix3 c p (0 : Fin 3)) = y0 (ix3 c p (0 : Fin 1)) := by
  refine concatenate_apply_piece (t := P3) (2 : Fin 3) [⟨P1, y0⟩, ⟨P1, y1⟩, ⟨P1, y2⟩] h (ix3 c p (0 : Fin 3)) 0 (show 0 < 3 by decide) P1 y0 rfl rfl 0 rfl
    (ix3 c p (0 : Fin 1)) ?_ rfl
  intro b hb
  match b with
  | ⟨0, _⟩ => rfl
  | ⟨1, _⟩ => rfl
  | ⟨2, _⟩ => exact absurd rfl hb

/-- Entry (c, p, 1) is the second piece's entry (c, p, 0): one piece, of extent 1, lies before it. -/
theorem concat3_apply_1 (h : Shape.Concatenates [P1, P1, P1] P3 2) (y0 y1 y2 : P1.Idx → α) (c : Fin 2048) (p : Fin 256) :
    concatenate P3 2 [⟨P1, y0⟩, ⟨P1, y1⟩, ⟨P1, y2⟩] h (ix3 c p (1 : Fin 3)) = y1 (ix3 c p (0 : Fin 1)) := by
  refine concatenate_apply_piece (t := P3) (2 : Fin 3) [⟨P1, y0⟩, ⟨P1, y1⟩, ⟨P1, y2⟩] h (ix3 c p (1 : Fin 3)) 1 (show 1 < 3 by decide) P1 y1 rfl rfl 1 rfl
    (ix3 c p (0 : Fin 1)) ?_ rfl
  intro b hb
  match b with
  | ⟨0, _⟩ => rfl
  | ⟨1, _⟩ => rfl
  | ⟨2, _⟩ => exact absurd rfl hb

/-- Entry (c, p, 2) is the third piece's entry (c, p, 0): two pieces, of total extent 2, lie before it. -/
theorem concat3_apply_2 (h : Shape.Concatenates [P1, P1, P1] P3 2) (y0 y1 y2 : P1.Idx → α) (c : Fin 2048) (p : Fin 256) :
    concatenate P3 2 [⟨P1, y0⟩, ⟨P1, y1⟩, ⟨P1, y2⟩] h (ix3 c p (2 : Fin 3)) = y2 (ix3 c p (0 : Fin 1)) := by
  refine concatenate_apply_piece (t := P3) (2 : Fin 3) [⟨P1, y0⟩, ⟨P1, y1⟩, ⟨P1, y2⟩] h (ix3 c p (2 : Fin 3)) 2 (show 2 < 3 by decide) P1 y2 rfl rfl 2 rfl
    (ix3 c p (0 : Fin 1)) ?_ rfl
  intro b hb
  match b with
  | ⟨0, _⟩ => rfl
  | ⟨1, _⟩ => rfl
  | ⟨2, _⟩ => exact absurd rfl hb

/-! ## A texel row fetched by an integer triple -/

/-- The shape of the texel array, and of the fetched rows. -/
abbrev T4 : Shape := ⟨4, ![2048, 16, 16, 64]⟩
abbrev R3 : Shape := ⟨3, ![2048, 256, 64]⟩

/-- The gather's dimension numbers: the start index has three components, one for each of the first three axes of the
    operand, stored along the last axis of the start indices; those three axes are collapsed (slice size 1) and the fourth is
    copied whole (slice size 64) onto the result's last axis. Their conditions wf are decided on the literal shapes. -/
abbrev texDims (wf : GatherDims.WF T4 P3 R3 [2] [0, 1, 2] [] [0, 1, 2] [] 2 ![1, 1, 1, 64]) : GatherDims T4 P3 R3 where
  offsetDims := [2]
  collapsedSliceDims := [0, 1, 2]
  operandBatchingDims := []
  startIndicesBatchingDims := []
  startIndexMap := [0, 1, 2]
  indexVectorDim := 2
  sliceSizes := ![1, 1, 1, 64]
  wf := wf

variable {w : Nat} (wf : GatherDims.WF T4 P3 R3 [2] [0, 1, 2] [] [0, 1, 2] [] 2 ![1, 1, 1, 64])

/-- Component k of the start index of result entry (c, p, f) is read at (c, p, k). -/
theorem siIdx_0 (c : Fin 2048) (p : Fin 256) (f : Fin 64) (hk : List.idxOf (0 : Fin 4) [0, 1, 2] < 3) :
    (texDims wf).siIdx (ix3 c p f) ⟨List.idxOf (0 : Fin 4) [0, 1, 2], hk⟩ = ix3 c p (0 : Fin 3) := by
  funext b; refine Fin.ext ?_
  match b with
  | ⟨0, _⟩ => rfl
  | ⟨1, _⟩ => rfl
  | ⟨2, _⟩ => rfl
theorem siIdx_1 (c : Fin 2048) (p : Fin 256) (f : Fin 64) (hk : List.idxOf (1 : Fin 4) [0, 1, 2] < 3) :
    (texDims wf).siIdx (ix3 c p f) ⟨List.idxOf (1 : Fin 4) [0, 1, 2], hk⟩ = ix3 c p (1 : Fin 3) := by
  funext b; refine Fin.ext ?_
  match b with
  | ⟨0, _⟩ => rfl
  | ⟨1, _⟩ => rfl
  | ⟨2, _⟩ => rfl
theorem siIdx_2 (c : Fin 2048) (p : Fin 256) (f : Fin 64) (hk : List.idxOf (2 : Fin 4) [0, 1, 2] < 3) :
    (texDims wf).siIdx (ix3 c p f) ⟨List.idxOf (2 : Fin 4) [0, 1, 2], hk⟩ = ix3 c p (2 : Fin 3) := by
  funext b; refine Fin.ext ?_
  match b with
  | ⟨0, _⟩ => rfl
  | ⟨1, _⟩ => rfl
  | ⟨2, _⟩ => rfl

/-- On a collapsed axis the operand coordinate is the clamped start alone: no batching and no offset coordinate. -/
theorem operand_coord_collapsed (idx : IVec P3 w) (j : R3.Idx) (a : Fin 4) (ha : a ∈ [(0 : Fin 4), 1, 2]) :
    ((texDims wf).operandIdx j idx a).val = (texDims wf).start j idx a := by
  show (texDims wf).start j idx a + (texDims wf).batchCoord j a + (texDims wf).offCoord j a = _
  rw [GatherDims.batchCoord_eq_zero _ _ _ List.not_mem_nil,
    GatherDims.offCoord_eq_zero _ _ _ (fun h => ((GatherDims.mem_sKept _ _).mp h).1 ha)]
  rfl

/-- THE GATHER READ AT (c, p, f): the operand at the triple stored at (c, p, ·), each component read signed and clamped into
    its axis, and at feature f. -/
theorem gather_tex_apply (x : T4.Idx → α) (idx : IVec P3 w) (c : Fin 2048) (p : Fin 256) (f : Fin 64) :
    Host.gather (texDims wf) x idx (ix3 c p f) =
      x (ix4 (⟨min (idx (ix3 c p (0 : Fin 3))).toInt.toNat 2047, by omega⟩ : Fin 2048)
        (⟨min (idx (ix3 c p (1 : Fin 3))).toInt.toNat 15, by omega⟩ : Fin 16)
        (⟨min (idx (ix3 c p (2 : Fin 3))).toInt.toNat 15, by omega⟩ : Fin 16) f) := by
  unfold Host.gather
  congr 1
  funext a
  refine Fin.ext ?_
  match a with
  | ⟨0, _⟩ =>
    refine (operand_coord_collapsed wf idx _ 0 (by decide)).trans ?_
    unfold GatherDims.start
    rw [dif_pos (show (0 : Fin 4) ∈ [(0 : Fin 4), 1, 2] by decide)]
    show min (idx ((texDims wf).siIdx (ix3 c p f) ⟨List.idxOf (0 : Fin 4) [0, 1, 2], _⟩)).toInt.toNat 2047 = _
    rw [siIdx_0]
  | ⟨1, _⟩ =>
    refine (operand_coord_collapsed wf idx _ 1 (by decide)).trans ?_
    unfold GatherDims.start
    rw [dif_pos (show (1 : Fin 4) ∈ [(0 : Fin 4), 1, 2] by decide)]
    show min (idx ((texDims wf).siIdx (ix3 c p f) ⟨List.idxOf (1 : Fin 4) [0, 1, 2], _⟩)).toInt.toNat 15 = _
    rw [siIdx_1]
  | ⟨2, _⟩ =>
    refine (operand_coord_collapsed wf idx _ 2 (by decide)).trans ?_
    unfold GatherDims.start
    rw [dif_pos (show (2 : Fin 4) ∈ [(0 : Fin 4), 1, 2] by decide)]
    show min (idx ((texDims wf).siIdx (ix3 c p f) ⟨List.idxOf (2 : Fin 4) [0, 1, 2], _⟩)).toInt.toNat 15 = _
    rw [siIdx_2]
  | ⟨3, _⟩ =>
    show (texDims wf).start (ix3 c p f) idx 3 + (texDims wf).batchCoord (ix3 c p f) 3 + (texDims wf).offCoord (ix3 c p f) 3 = f.val
    rw [GatherDims.batchCoord_eq_zero _ _ _ List.not_mem_nil]
    unfold GatherDims.start GatherDims.offCoord
    rw [dif_neg (show (3 : Fin 4) ∉ [(0 : Fin 4), 1, 2] by decide),
      dif_pos ((GatherDims.mem_sKept _ _).2 ⟨(show (3 : Fin 4) ∉ [(0 : Fin 4), 1, 2] by decide), List.not_mem_nil⟩)]
    rw [Nat.zero_add]
    show (ix3 c p f (([(2 : Fin 3)] : List (Fin 3))[List.idxOf (3 : Fin 4) (texDims wf).sKept]'_)).val = f.val
    rw [List.getElem_singleton]

end Cert.RefGather

end
-- ==== Proof.RefValue.lean ====
/-
  The reference's result, read at an index, is the bilinear fetch of the specification.

  Each of the four corner fetches reads the texel array at an integer triple (complex, row, column) laid side by side
  and gathered; with the triples' components known (the coordinate stages) each fetch is the texel function of the
  specification at the cell's corner. The result is then the two-step blend of the four, written with the same
  operations in the same arrangement as the specification's: over the extended reals nothing more is needed.
-/
import proofs.«115967_j30502857736195_2_alg».proof.Proof.RefStages
import proofs.«115967_j30502857736195_2_alg».proof.Proof.RefGather

noncomputable section

namespace Cert.RefValue

open Idealize.ShloMosaic Idealize.ShloMosaic.ValueIdx Cert.ReferenceIdeal Cert.ReferenceIdeal.Read Cert.Spec
open Cert.RefGather (concat3_apply_0 concat3_apply_1 concat3_apply_2 gather_tex_apply)

/-- The texel array at a triple whose components are known, each clamped into its axis: the clamp of the complex does
    nothing (it is below 2048), the other two clamps are the texel function's own. -/
theorem tex_of_triple (mp : (⟨4, ![2048, 16, 16, 64]⟩ : Shape).Idx → EReal) (c : Fin 2048) (f : Fin 64)
    (A B C r s : Nat) (hA : A = c.val) (hB : B = r) (hC : C = s)
    (h0 : min A 2047 < 2048) (h1 : min B 15 < 16) (h2 : min C 15 < 16) :
    mp (ix4 (⟨min A 2047, h0⟩ : Fin 2048) (⟨min B 15, h1⟩ : Fin 16) (⟨min C 15, h2⟩ : Fin 16) f) = tex mp c f r s := by
  subst hA hB hC
  have e : (⟨min c.val 2047, h0⟩ : Fin 2048) = c := Fin.ext (by show min c.val 2047 = c.val; omega)
  rw [e]
  rfl

section Corners

variable (x0 : (⟨S2048x16x16x64, .f32⟩ : BufTy).Contents (Elt Ideal))
  (x1 x2 : (⟨S2048x256, .f32⟩ : BufTy).Contents (Elt Ideal)) (c : Fin 2048) (p : Fin 256) (f : Fin 64)

/-! ## The four triples, component by component -/

theorem v37_0 : val_main_v37 (F := Ideal) x1 x2 (ix3 c p (0 : Fin 3)) = BitVec.ofNat 32 c.val :=
  (concat3_apply_0 _ _ _ _ c p).trans (v34_at c p 0)
theorem v37_1 : val_main_v37 (F := Ideal) x1 x2 (ix3 c p (1 : Fin 3)) = cell (x2 (ix2 c p)) :=
  (concat3_apply_1 _ _ _ _ c p).trans (v35_at x2 c p 0)
theorem v37_2 : val_main_v37 (F := Ideal) x1 x2 (ix3 c p (2 : Fin 3)) = cell (x1 (ix2 c p)) :=
  (concat3_apply_2 _ _ _ _ c p).trans (v36_at x1 c p 0)

theorem v60_0 : val_main_v60 (F := Ideal) x1 x2 (ix3 c p (0 : Fin 3)) = BitVec.ofNat 32 c.val :=
  (concat3_apply_0 _ _ _ _ c p).trans (v57_at c p 0)
theorem v60_1 : val_main_v60 (F := Ideal) x1 x2 (ix3 c p (1 : Fin 3)) = cell (x2 (ix2 c p)) :=
  (concat3_apply_1 _ _ _ _ c p).trans (v58_at x2 c p 0)
theorem v60_2 : val_main_v60 (F := Ideal) x1 x2 (ix3 c p (2 : Fin 3)) = IntOp.addi (cell (x1 (ix2 c p))) 1#32 :=
  (concat3_apply_2 _ _ _ _ c p).trans (v59_at x1 c p 0)

theorem v83_0 : val_main_v83 (F := Ideal) x1 x2 (ix3 c p (0 : Fin 3)) = BitVec.ofNat 32 c.val :=
  (concat3_apply_0 _ _ _ _ c p).trans (v80_at c p 0)
theorem v83_1 : val_main_v83 (F := Ideal) x1 x2 (ix3 c p (1 : Fin 3)) = IntOp.addi (cell (x2 (ix2 c p))) 1#32 :=
  (concat3_apply_1 _ _ _ _ c p).trans (v81_at x2 c p 0)
theorem v83_2 : val_main_v83 (F := Ideal) x1 x2 (ix3 c p (2 : Fin 3)) = cell (x1 (ix2 c p)) :=
  (concat3_apply_2 _ _ _ _ c p).trans (v82_at x1 c p 0)

theorem v108_0 : val_main_v108 (F := Ideal) x1 x2 (ix3 c p (0 : Fin 3)) = BitVec.ofNat 32 c.val :=
  (concat3_apply_0 _ _ _ _ c p).trans (v105_at c p 0)
theorem v108_1 : val_main_v108 (F := Ideal) x1 x2 (ix3 c p (1 : Fin 3)) = IntOp.addi (cell (x2 (ix2 c p))) 1#32 :=
  (concat3_apply_1 _ _ _ _ c p).trans (v106_at x2 c p 0)
theorem v108_2 : val_main_v108 (F := Ideal) x1 x2 (ix3 c p (2 : Fin 3)) = IntOp.addi (cell (x1 (ix2 c p))) 1#32 :=
  (concat3_apply_2 _ _ _ _ c p).trans (v107_at x1 c p 0)

/-! ## The four corner texels -/

/-- Row y0, column x0. -/
theorem v38_at : val_main_v38 (F := Ideal) x0 x1 x2 (ix3 c p f)
    = tex x0 c f (cell (x2 (ix2 c p))).toNat (cell (x1 (ix2 c p))).toNat := by
  unfold val_main_v38
  refine (gather_tex_apply _ x0 _ c p f).trans ?_
  exact tex_of_triple x0 c f _ _ _ _ _ (by rw [v37_0, ofNat_toInt_toNat _ c.isLt]) (by rw [v37_1, cell_toInt_toNat])
    (by rw [v37_2, cell_toInt_toNat]) _ _ _

/-- Row y0, column x0 + 1. -/
theorem v61_at : val_main_v61 (F := Ideal) x0 x1 x2 (ix3 c p f)
    = tex x0 c f (cell (x2 (ix2 c p))).toNat ((cell (x1 (ix2 c p))).toNat + 1) := by
  unfold val_main_v61
  refine (gather_tex_apply _ x0 _ c p f).trans ?_
  exact tex_of_triple x0 c f _ _ _ _ _ (by rw [v60_0, ofNat_toInt_toNat _ c.isLt]) (by rw [v60_1, cell_toInt_toNat])
    (by rw [v60_2, succ_toInt_toNat]) _ _ _

/-- Row y0 + 1, column x0. -/
theorem v84_at : val_main_v84 (F := Ideal) x0 x1 x2 (ix3 c p f)
    = tex x0 c f ((cell (x2 (ix2 c p))).toNat + 1) (cell (x1 (ix2 c p))).toNat := by
  unfold val_main_v84
  refine (gather_tex_apply _ x0 _ c p f).trans ?_
  exact tex_of_triple x0 c f _ _ _ _ _ (by rw [v83_0, ofNat_toInt_toNat _ c.isLt]) (by rw [v83_1, succ_toInt_toNat])
    (by rw [v83_2, cell_toInt_toNat]) _ _ _

/-- Row y0 + 1, column x0 + 1. -/
theorem v109_at : val_main_v109 (F := Ideal) x0 x1 x2 (ix3 c p f)
    = tex x0 c f ((cell (x2 (ix2 c p))).toNat + 1) ((cell (x1 (ix2 c p))).toNat + 1) := by
  unfold val_main_v109
  refine (gather_tex_apply _ x0 _ c p f).trans ?_
  exact tex_of_triple x0 c f _ _ _ _ _ (by rw [v108_0, ofNat_toInt_toNat _ c.isLt]) (by rw [v108_1, succ_toInt_toNat])
    (by rw [v108_2, succ_toInt_toNat]) _ _ _

end Corners

/-- THE REFERENCE SIDE: the reference's result is the bilinear fetch, entry by entry. -/
theorem ref_eq (x0 : (⟨S2048x16x16x64, .f32⟩ : BufTy).Contents (Elt Ideal))
    (x1 x2 : (⟨S2048x256, .f32⟩ : BufTy).Contents (Elt Ideal)) :
    val_main_v130 (F := Ideal) x0 x1 x2 = Cert.Spec.G x0 x1 x2 := by
  funext j
  obtain ⟨c, p, f, rfl⟩ : ∃ c p f, j = ix3 c p f := ⟨j 0, j 1, j 2, eq_ix3 j⟩
  rw [val_main_v130_apply, val_main_v127_apply, val_main_v129_apply, val_main_v116_apply, val_main_v123_apply,
    val_main_v113_apply, val_main_v115_apply, val_main_v120_apply, val_main_v122_apply,
    v38_at, v61_at, v84_at, v109_at, v112_at, v114_at, v119_at, v121_at, v126_at, v128_at]
  rfl

end Cert.RefValue

end
-- ==== Proof.lean ====
/-
  A bilinear texture fetch as one dense contraction: the kernel equals its reference over the extended reals.

  Inputs: 2048 grids of 16 x 16 texels with 64 features each, and for each grid 256 samples with coordinates (u, v).
  THE REFERENCE scales a sample's coordinates by 15, takes the cell (the floor, clamped to [0, 14]) and the offset inside the
  cell on each axis, gathers the four texels at the cell's corners and blends them, first along the columns, then along the
  rows. THE KERNEL, for 16 grids at a time, builds for every sample a weight over all 256 texels (the product of a two-point
  row weight and a two-point column weight, found by comparing the texel's row and column with the cell), and contracts the
  texels with the weights in three matrix products of an error-compensated split: rounded texels with rounded weights,
  rounded texels with the weights' rounding error, the texels' rounding error with rounded weights.

  Over the extended reals a rounding is the identity. The idealization replaces "widen (narrow x)" by x at two places
  (`preserves`, the two ledger entries), so the two rounding errors are "x less x": zero when x is a real number, which the
  precondition (every input finite) gives for the texels, and, through the scaling, the cell and the offset, for the
  weights. The two error products are then sums of zeros, the remaining contraction of a texel with a product of two
  two-point weights collapses to the four corner texels, and distributing the row weights over the column blend gives the
  reference's two-step form (Proof/Algebra.lean: this is where finiteness is used; the extended reals do not distribute at
  the infinities).

  The modules: Proof/Spec.lean states the mathematics (cell, offset, two-point weight, the bilinear fetch `G`);
  Proof/Algebra.lean the law between the contraction and the two-step blend; Proof/Weight.lean and Proof/Contraction.lean
  read the kernel body's weight and its three products at an index, Proof/Body.lean the whole output block;
  Proof/KernelArray.lean goes from the 128 blocks to the result array (the imported value leg names the array after the run
  and what each grid point writes back); Proof/RefGather.lean and the Proof/Ref… modules read the reference's gathers and
  its result at an index over the imported run of the reference; Proof/Finite.lean turns the precondition into "every entry
  is a real number". The three frames are the imported frame proofs.
-/
import proofs.«115967_j30502857736195_2_alg».proof.Defs
import proofs.«115967_j30502857736195_2_alg».proof.Proof.Gen.Kernel
import proofs.«115967_j30502857736195_2_alg».proof.Proof.Gen.Kernel.Skeleton
import proofs.«115967_j30502857736195_2_alg».proof.Proof.Gen.Kernel.Launch
import proofs.«115967_j30502857736195_2_alg».proof.Proof.Gen.Kernel.Points
import proofs.«115967_j30502857736195_2_alg».proof.Proof.Gen.Kernel.Frame
import proofs.«115967_j30502857736195_2_alg».proof.Proof.Gen.KernelIdeal
import proofs.«115967_j30502857736195_2_alg».proof.Proof.Gen.KernelIdeal.Skeleton
import proofs.«115967_j30502857736195_2_alg».proof.Proof.Gen.KernelIdeal.Launch
import proofs.«115967_j30502857736195_2_alg».proof.Proof.Gen.KernelIdeal.Points
import proofs.«115967_j30502857736195_2_alg».proof.Proof.Gen.KernelIdeal.Frame
import proofs.«115967_j30502857736195_2_alg».proof.Proof.Gen.ReferenceIdeal
import proofs.«115967_j30502857736195_2_alg».proof.Proof.Gen.Pre_finite_inputs
import proofs.«115967_j30502857736195_2_alg».proof.Proof.Gen.KernelIdeal.Value
import proofs.«115967_j30502857736195_2_alg».proof.Proof.Gen.ReferenceIdeal.Run
import proofs.«115967_j30502857736195_2_alg».proof.Proof.Gen.ReferenceIdeal.Read
import proofs.«115967_j30502857736195_2_alg».proof.Proof.Spec
import proofs.«115967_j30502857736195_2_alg».proof.Proof.Finite
import proofs.«115967_j30502857736195_2_alg».proof.Proof.KernelArray
import proofs.«115967_j30502857736195_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two ledger entries: narrowing the texels, and the weights, to sixteen bits and widening back is the identity on
    the extended reals (and the rounding through sixteen bits on words). -/
theorem preserves : Cert.preserves_Kernel_KernelIdeal :=
  ⟨IdealRules.truncf_extf.statement _ .f32 .bf16, IdealRules.truncf_extf.statement _ .f32 .bf16⟩

/-- From memories that agree on finite arguments both idealized programs end with the bilinear fetch `Spec.G` of the
    arguments in their result arrays: the kernel by its blocks (Proof/KernelArray.lean), the reference by its run read at
    an index (Proof/RefValue.lean). -/
theorem algebraic : Cert.algebraic_KernelIdeal_ReferenceIdeal := by
  intro m ρ m' ρ' hpre hagree
  have hfin : ∀ c : Dev Cert.KernelIdeal.nD,
      (∀ i, ∃ r : ℝ, m ((c : Thread Cert.KernelIdeal.nD Cert.KernelIdeal.τ).loc Cert.KernelIdeal.main_arg0) i = (r : EReal))
      ∧ (∀ i, ∃ r : ℝ, m ((c : Thread Cert.KernelIdeal.nD Cert.KernelIdeal.τ).loc Cert.KernelIdeal.main_arg1) i = (r : EReal))
      ∧ (∀ i, ∃ r : ℝ, m ((c : Thread Cert.KernelIdeal.nD Cert.KernelIdeal.τ).loc Cert.KernelIdeal.main_arg2) i = (r : EReal)) :=
    fun c => Cert.Finite.real_of_pre _ _ _ (hpre c)
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelArray.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v130_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
